-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S8192x8 : Shape := ⟨2, ![8192, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x8 : S_.BroadcastsInDim S8192x8 (![] : Fin 0 → Fin S8192x8.rank)
  reducesTo_S8192x8_S_d0_1 : S8192x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S8x4 .f32) (main_arg5 : FVec F S4 .f32) (main_arg6 : FVec F S4x1 .f32) (main_arg7 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x4 .f32 := Host.absf main_arg4
  let main_cst_6 : FVec F S_ .f32 := constant S_ .f32 0x7F800000#32
  let main_v20 : FVec F S8x4 .f32 := broadcastInDim S8x4 ![] bcast_S_S8x4 main_cst_6
  let main_v21 : IVec S8x4 1 := cmpf .olt main_v19 main_v20
  let main_c_7 : IVec S_ 1 := constantI S_ 1 1#1
  let main_v22 : IVec S_ 1 := (fun x v => Host.reduce IntOp.andi x v reducesTo_S8x4_S_d0_1 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x1 .f32 := Host.absf main_arg6
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S8192x512 .f32) (main_arg2 : FVec F S8192x8 .f32) (main_arg3 : FVec F S8 .f32) (main_arg4 : FVec F S8x4 .f32) (main_arg5 : FVec F S4 .f32) (main_arg6 : FVec F S4x1 .f32) (main_arg7 : FVec F S1 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x8 .f32 := Host.absf main_arg2
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_v13 main_v16
-- ==== Kernel.lean ====
abbrev S4096x512 : Shape := ⟨2, ![4096, 512]⟩
abbrev S8192x512 : Shape := ⟨2, ![8192, 512]⟩
abbrev S8192x8 : Shape := ⟨2, ![8192, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S2048x512 : Shape := ⟨2, ![2048, 512]⟩
abbrev S1024x1 : Shape := ⟨2, ![1024, 1]⟩
abbrev S1x2048 : Shape := ⟨2, ![1, 2048]⟩
abbrev S2048x8 : Shape := ⟨2, ![2048, 8]⟩
abbrev S1024x8 : Shape := ⟨2, ![1024, 8]⟩
abbrev S1024x2048 : Shape := ⟨2, ![1024, 2048]⟩
abbrev S1x8 : Shape := ⟨2, ![1, 8]⟩
abbrev S1024x4 : Shape := ⟨2, ![1024, 4]⟩
abbrev S1x4 : Shape := ⟨2, ![1, 4]⟩
abbrev S1x1 : Shape := ⟨2, ![1, 1]⟩

abbrev nBuf : Space → Nat
  | .hbm => 22
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x8, .f32⟩
  | .hbm, ⟨3, _⟩ => ⟨S8, .f32⟩
  | .hbm, ⟨4, _⟩ => ⟨S8x4, .f32⟩
  | .hbm, ⟨5, _⟩ => ⟨S4, .f32⟩
  | .hbm, ⟨6, _⟩ => ⟨S4x1, .f32⟩
  | .hbm, ⟨7, _⟩ => ⟨S1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S4096x512, .bf16⟩
  | .hbm, ⟨18, _⟩ => ⟨S8192x512, .bf16⟩
  | .hbm, ⟨19, _⟩ => ⟨S8192x8, .bf16⟩
  | .hbm, ⟨20, _⟩ => ⟨S4096x1, .f32⟩
  | .hbm, ⟨21, _⟩ => ⟨S4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S2048x8, .bf16⟩
  | .local _ .vmem, ⟨9, _⟩ => ⟨S2048x8, .bf16⟩
  | .local _ .vmem, ⟨10, _⟩ => ⟨S8x4, .f32⟩
  | .local _ .vmem, ⟨11, _⟩ => ⟨S4x1, .f32⟩
  | .local _ .vmem, ⟨12, _⟩ => ⟨S8, .f32⟩
  | .local _ .vmem, ⟨13, _⟩ => ⟨S4, .f32⟩
  | .local _ .vmem, ⟨14, _⟩ => ⟨S1, .f32⟩
  | .local _ .vmem, ⟨15, _⟩ => ⟨S1024x1, .f32⟩
  | .local _ .vmem, ⟨16, _⟩ => ⟨S1024x1, .f32⟩
  | .local _ .vmem, ⟨17, _⟩ => ⟨S1024x8, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x8 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S1024x4 : S1x4.Broadcasts S1024x4
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  shapeCasts_S4096x1_S4096 : S4096x1.ShapeCasts S4096
  dot_S1024x512_S2048x512_S1024x2048_1_1_0_0_n_n_wf : DotDims.WF S1024x512 S2048x512 S1024x2048 [1] [1] [0] [0] [] []
  dot_S1024x2048_S2048x8_S1024x8_1_0_0_1_n_n_wf : DotDims.WF S1024x2048 S2048x8 S1024x8 [1] [0] [0] [1] [] []
  dot_S1024x8_S8x4_S1024x4_1_0_0_1_n_n_wf : DotDims.WF S1024x8 S8x4 S1024x4 [1] [0] [0] [1] [] []
  dot_S1024x4_S4x1_S1024x1_1_0_0_1_n_n_wf : DotDims.WF S1024x4 S4x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S8192x8.size a
  hwx0_4 : ∀ i : grid0.Coords, EltTy.bits .bf16 = 32 ∨ (Rect.block (s := S8192x8) S2048x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1.size a ≤ S4x1.size a
  hwx0_6 : ∀ i : grid0.Coords, EltTy.bits .f32 = 32 ∨ (Rect.block (s := S4x1) S4x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4.size a ≤ S4.size a
  hwx0_8 : ∀ i : grid0.Coords, EltTy.bits .f32 = 32 ∨ (Rect.block (s := S4) S4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S4096x1.size a
  hwx0_10 : ∀ i : grid0.Coords, EltTy.bits .f32 = 32 ∨ (Rect.block (s := S4096x1) S1024x1.size (cc0_transform_10 i) (hinb0_10 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x2048_S2048x8_S1024x8_1_0_0_1_n_n : DotDims S1024x2048 S2048x8 S1024x8 where
  lhsContracting := [1]
  rhsContracting := [0]
  lhsNonContracting := [0]
  rhsNonContracting := [1]
  lhsBatch := []
  rhsBatch := []
  wf := dot_S1024x2048_S2048x8_S1024x8_1_0_0_1_n_n_wf
def dot_S1024x8_S8x4_S1024x4_1_0_0_1_n_n : DotDims S1024x8 S8x4 S1024x4 where
  lhsContracting := [1]
  rhsContracting := [0]
  lhsNonContracting := [0]
  rhsNonContracting := [1]
  lhsBatch := []
  rhsBatch := []
  wf := dot_S1024x8_S8x4_S1024x4_1_0_0_1_n_n_wf
def dot_S1024x4_S4x1_S1024x1_1_0_0_1_n_n : DotDims S1024x4 S4x1 S1024x1 where
  lhsContracting := [1]
  rhsContracting := [0]
  lhsNonContracting := [0]
  rhsNonContracting := [1]
  lhsBatch := []
  rhsBatch := []
  wf := dot_S1024x4_S4x1_S1024x1_1_0_0_1_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S8192x8 : Shape := ⟨2, ![8192, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S512x8192 : Shape := ⟨2, ![512, 8192]⟩
abbrev S4096x8 : Shape := ⟨2, ![4096, 8]⟩
abbrev S1x8 : Shape := ⟨2, ![1, 8]⟩
abbrev S4096x4 : Shape := ⟨2, ![4096, 4]⟩
abbrev S1x4 : Shape := ⟨2, ![1, 4]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x8, .f32⟩
  | .hbm, ⟨3, _⟩ => ⟨S8, .f32⟩
  | .hbm, ⟨4, _⟩ => ⟨S8x4, .f32⟩
  | .hbm, ⟨5, _⟩ => ⟨S4, .f32⟩
  | .hbm, ⟨6, _⟩ => ⟨S4x1, .f32⟩
  | .hbm, ⟨7, _⟩ => ⟨S1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S512x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x4, .f32⟩
  | .hbm, ⟨38, _⟩ => ⟨S1x4, .f32⟩
  | .hbm, ⟨39, _⟩ => ⟨S4096x4, .f32⟩
  | .hbm, ⟨40, _⟩ => ⟨S4096x4, .f32⟩
  | .hbm, ⟨41, _⟩ => ⟨S4096x4, .f32⟩
  | .hbm, ⟨42, _⟩ => ⟨S4096x1, .f32⟩
  | .hbm, ⟨43, _⟩ => ⟨S1x1, .f32⟩
  | .hbm, ⟨44, _⟩ => ⟨S4096x1, .f32⟩
  | .hbm, ⟨45, _⟩ => ⟨S4096x1, .f32⟩
  | .hbm, ⟨46, _⟩ => ⟨S4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x512_S512x8192_1_0 : S8192x512.Transposes [1, 0] S512x8192
  bcast_S_S4096x8192 : S_.BroadcastsInDim S4096x8192 (![] : Fin 0 → Fin S4096x8192.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S4096x512_S512x8192_S4096x8192_1_0_0_1_n_n_wf : DotDims.WF S4096x512 S512x8192 S4096x8192 [1] [0] [0] [1] [] []
  dot_S4096x8192_S8192x8_S4096x8_1_0_0_1_n_n_wf : DotDims.WF S4096x8192 S8192x8 S4096x8 [1] [0] [0] [1] [] []
  dot_S4096x8_S8x4_S4096x4_1_0_0_1_n_n_wf : DotDims.WF S4096x8 S8x4 S4096x4 [1] [0] [0] [1] [] []
  dot_S4096x4_S4x1_S4096x1_1_0_0_1_n_n_wf : DotDims.WF S4096x4 S4x1 S4096x1 [1] [0] [0] [1] [] []

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def dot_S4096x8192_S8192x8_S4096x8_1_0_0_1_n_n : DotDims S4096x8192 S8192x8 S4096x8 where
  lhsContracting := [1]
  rhsContracting := [0]
  lhsNonContracting := [0]
  rhsNonContracting := [1]
  lhsBatch := []
  rhsBatch := []
  wf := dot_S4096x8192_S8192x8_S4096x8_1_0_0_1_n_n_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf
def dot_S4096x4_S4x1_S4096x1_1_0_0_1_n_n : DotDims S4096x4 S4x1 S4096x1 where
  lhsContracting := [1]
  rhsContracting := [0]
  lhsNonContracting := [0]
  rhsNonContracting := [1]
  lhsBatch := []
  rhsBatch := []
  wf := dot_S4096x4_S4x1_S4096x1_1_0_0_1_n_n_wf

class Facts : Prop extends Facts₀ where

variable [Facts]
-- ==== Proof.Spec.lean ====
/-
  The result as ONE function of the eight argument arrays, index by index, over the extended reals.

  With x_r the rows of X (4096 of them, 512 long) and y_j the rows of X_train (8192 of them):
    sqX r = 0 + Σ_d x_r[d]²,   sqY j = 0 + Σ_d y_j[d]²,   dotXY r j = Σ_d x_r[d]·y_j[d],
    the radial kernel entry  K r j = exp(-γ · max(sqX r + sqY j - 2·dotXY r j, 0)),
    the first layer's sum    acc r h = Σ_j K r j · W1[j, h],
    and the small network    mlp(acc r) = Σ_q tanh(Σ_h tanh(acc r h + b1[h])·W2[h, q] + b2[q])·W3[q, 0] + b3[0].
  That is the reference (`G`).  The other program folds γ into the exponent,
    K' r j = exp(min(2γ·dotXY r j + (-γ)·sqX r + (-γ)·sqY j, 0)),
  and sums the 8192 training rows in four blocks of 2048, one after the other onto a zero (`GK`).
  The float words -γ and 2γ are kept as the patterns both programs print.
-/
import Idealize.ShloMosaic.PureOps.Ideal
import Idealize.ShloMosaic.Lib.ValueIdx

noncomputable section

open scoped BigOperators

namespace Cert.Spec

open Idealize.ShloMosaic Idealize.ShloMosaic.ValueIdx

/-! ## The argument arrays, as functions of their indices -/

abbrev AX := (⟨2, ![4096, 512]⟩ : Shape).Idx → EReal
abbrev AY := (⟨2, ![8192, 512]⟩ : Shape).Idx → EReal
abbrev AW1 := (⟨2, ![8192, 8]⟩ : Shape).Idx → EReal
abbrev AB1 := (⟨1, ![8]⟩ : Shape).Idx → EReal
abbrev AW2 := (⟨2, ![8, 4]⟩ : Shape).Idx → EReal
abbrev AB2 := (⟨1, ![4]⟩ : Shape).Idx → EReal
abbrev AW3 := (⟨2, ![4, 1]⟩ : Shape).Idx → EReal
abbrev AB3 := (⟨1, ![1]⟩ : Shape).Idx → EReal

/-! ## The four float words -/

abbrev zero : EReal := Ideal.ofBits .f32 0x00000000#32
abbrev two : EReal := Ideal.ofBits .f32 0x40000000#32
/-- `-γ`, the word both programs print as `-1.0e-3`. -/
abbrev negG : EReal := Ideal.ofBits .f32 0xBA83126F#32
/-- `2γ`, the word the blocked program prints as `2.0e-3`. -/
abbrev twoG : EReal := Ideal.ofBits .f32 0x3B03126F#32

/-! ## Squared norms, the cross term, the two spellings of the kernel entry -/

/-- The squared norm of row `r` of `X`, summed onto the zero word. -/
def sqX (X : AX) (r : Fin 4096) : EReal := zero + ∑ d : Fin 512, X (ix2 r d) * X (ix2 r d)

/-- The squared norm of row `j` of `X_train`, summed onto the zero word. -/
def sqY (Y : AY) (j : Fin 8192) : EReal := zero + ∑ d : Fin 512, Y (ix2 j d) * Y (ix2 j d)

/-- The inner product of row `r` of `X` with row `j` of `X_train`. -/
def dotXY (X : AX) (Y : AY) (r : Fin 4096) (j : Fin 8192) : EReal := ∑ d : Fin 512, X (ix2 r d) * Y (ix2 j d)

/-- The radial kernel entry as the reference spells it: `exp(-γ · max(|x|² + |y|² - 2 x·y, 0))`. -/
def rbfRef (X : AX) (Y : AY) (r : Fin 4096) (j : Fin 8192) : EReal :=
  Ideal.exp (negG * max ((sqX X r + sqY Y j) - two * dotXY X Y r j) zero)

/-- The same entry with γ folded into the exponent: `exp(min(2γ x·y + (-γ)|x|² + (-γ)|y|², 0))`. -/
def rbfKer (X : AX) (Y : AY) (r : Fin 4096) (j : Fin 8192) : EReal :=
  Ideal.exp (min ((twoG * dotXY X Y r j + negG * sqX X r) + negG * sqY Y j) zero)

/-! ## The small network on one row of first-layer sums -/

/-- `Σ_q tanh(Σ_h tanh(a h + b1 h)·W2[h,q] + b2 q)·W3[q,0] + b3 0`. -/
def mlp (a : Fin 8 → EReal) (b1 : AB1) (W2 : AW2) (b2 : AB2) (W3 : AW3) (b3 : AB3) : EReal :=
  (∑ q : Fin 4, Ideal.tanh ((∑ h : Fin 8, Ideal.tanh (a h + b1 (ix1 h)) * W2 (ix2 h q)) + b2 (ix1 q))
      * W3 (ix2 q (0 : Fin 1))) + b3 (ix1 (0 : Fin 1))

/-! ## The reference: one sum over all 8192 training rows -/

def accRef (X : AX) (Y : AY) (W1 : AW1) (r : Fin 4096) (h : Fin 8) : EReal :=
  ∑ j : Fin 8192, rbfRef X Y r j * W1 (ix2 j h)

/-- The reference's result at index `i` of the length-4096 output. -/
def G (X : AX) (Y : AY) (W1 : AW1) (b1 : AB1) (W2 : AW2) (b2 : AB2) (W3 : AW3) (b3 : AB3) :
    (⟨1, ![4096]⟩ : Shape).Idx → EReal :=
  fun i => mlp (accRef X Y W1 (i 0)) b1 W2 b2 W3 b3

/-! ## The blocked program: four blocks of 2048 training rows, folded onto a zero -/

/-- Training row `j'` of block `b` (taken modulo 8192 so that it is a row for every `b`; for `b < 4` it is
    `2048·b + j'` itself). -/
def colOf (b : ℕ) (j' : Fin 2048) : Fin 8192 := ⟨(2048 * b + j'.val) % 8192, Nat.mod_lt _ (by decide)⟩

/-- Row `r'` of row block `i` of `X` (modulo 4096; for `i < 4` it is `1024·i + r'`). -/
def rowOf (i : ℕ) (r' : Fin 1024) : Fin 4096 := ⟨(1024 * i + r'.val) % 4096, Nat.mod_lt _ (by decide)⟩

/-- Block `b`'s share of the first-layer sum. -/
def part (X : AX) (Y : AY) (W1 : AW1) (b : ℕ) (r : Fin 4096) (h : Fin 8) : EReal :=
  ∑ j' : Fin 2048, rbfKer X Y r (colOf b j') * W1 (ix2 (colOf b j') h)

/-- The running first-layer sum after blocks `0 … k`: the zero word, then each block's share added in order. -/
def accUpTo (X : AX) (Y : AY) (W1 : AW1) : ℕ → Fin 4096 → Fin 8 → EReal
  | 0, r, h => zero + part X Y W1 0 r h
  | k + 1, r, h => accUpTo X Y W1 k r h + part X Y W1 (k + 1) r h

/-- The blocked program's result at index `i`. -/
def GK (X : AX) (Y : AY) (W1 : AW1) (b1 : AB1) (W2 : AW2) (b2 : AB2) (W3 : AW3) (b3 : AB3) :
    (⟨1, ![4096]⟩ : Shape).Idx → EReal :=
  fun i => mlp (accUpTo X Y W1 3 (i 0)) b1 W2 b2 W3 b3

end Cert.Spec

end
-- ==== Proof.RefIsSpec.lean ====
/-
  The reference program, read index by index over the extended reals, is the function `Cert.Spec.G`.

  The reference computes, for the rows x_r of X and y_j of X_train,
    |x_r|² and |y_j|² as sums of squares onto the zero word (broadcast to a 4096 × 8192 table),
    the cross terms x_r · y_j as one contraction against the transposed X_train,
    the kernel entry exp(-γ · max(|x_r|² + |y_j|² - 2 x_r · y_j, 0)),
    the first layer  Σ_j K r j · W1[j, h]  as a contraction over all 8192 training rows,
    then  tanh(· + b1) · W2 + b2,  tanh(·) · W3 + b3,  and a reshape of the 4096 × 1 column to length 4096.
  Each stage below is read at explicit coordinates: a broadcast, a transpose or a reshape only moves the
  index (the composed index functions are identified with `ix2` / `ix1` of the coordinates, axis by axis), a
  contraction is the finite sum over its contracted axis, a float sum is its initial word plus the finite sum,
  and the pointwise operations are the extended-real operations.  The float words stay the patterns the
  program prints; they are never evaluated.
-/
import proofs.«168606_j65481071399956_2_alg».proof.Proof.Gen.ReferenceIdeal.Read
import proofs.«168606_j65481071399956_2_alg».proof.Proof.Spec

noncomputable section

open scoped BigOperators

namespace Cert.ReferenceIdeal.RefValue

open Idealize.ShloMosaic Idealize.ShloMosaic.ValueIdx Cert.ReferenceIdeal Cert.ReferenceIdeal.Read Cert.Spec

/-! ## The squared norms -/

/-- Row `r`'s sum of squares, broadcast along the 8192 columns: entry `(r, j)` is `sqX X r`. -/
theorem v6_eq (X : AX) (r : Fin 4096) (j : Fin 8192) :
    val_main_v6 (F := Ideal) X (ix2 r j) = sqX X r := by
  have e : ∀ k : Fin 512, idx_main_v1 (idx_main_v2 (idx_main_v6 (ix2 r j))) k = ix2 r k := fun k =>
    funext fun a => Fin.ext (by match a with | ⟨0, _⟩ => rfl | ⟨1, _⟩ => rfl)
  rw [val_main_v6_apply, val_main_v2_apply, val_main_v1_apply]
  simp only [val_main_v0_apply, val_main_cst_apply, e, Ideal.mulf_def, Ideal.ofBits_def]
  rfl

/-- Training row `j`'s sum of squares, broadcast along the 4096 rows: entry `(r, j)` is `sqY Y j`. -/
theorem v7_eq (Y : AY) (r : Fin 4096) (j : Fin 8192) :
    val_main_v7 (F := Ideal) Y (ix2 r j) = sqY Y j := by
  have e : ∀ k : Fin 512, idx_main_v4 (idx_main_v5 (idx_main_v7 (ix2 r j))) k = ix2 j k := fun k =>
    funext fun a => Fin.ext (by match a with | ⟨0, _⟩ => rfl | ⟨1, _⟩ => rfl)
  rw [val_main_v7_apply, val_main_v5_apply, val_main_v4_apply]
  simp only [val_main_v3_apply, val_main_cst_0_apply, e, Ideal.mulf_def, Ideal.ofBits_def]
  rfl

/-! ## The cross term -/

/-- The contraction of `X` with the transposed `X_train`: entry `(r, j)` is the inner product of the two rows. -/
theorem v10_eq (X : AX) (Y : AY) (r : Fin 4096) (j : Fin 8192) :
    val_main_v10 (F := Ideal) X Y (ix2 r j) = dotXY X Y r j := by
  have el : ∀ k : Fin 512, lidx_main_v10 (ix2 r j) k = ix2 r k := fun k =>
    funext fun a => Fin.ext (by match a with | ⟨0, _⟩ => rfl | ⟨1, _⟩ => rfl)
  have er : ∀ k : Fin 512, idx_main_v9 (ridx_main_v10 (ix2 r j) k) = ix2 j k := fun k =>
    funext fun a => Fin.ext (by match a with | ⟨0, _⟩ => rfl | ⟨1, _⟩ => rfl)
  rw [val_main_v10_apply]
  simp only [val_main_v9_apply, el, er]
  rfl

/-! ## The radial kernel entry -/

theorem v18_eq (X : AX) (Y : AY) (r : Fin 4096) (j : Fin 8192) :
    val_main_v18 (F := Ideal) X Y (ix2 r j) = rbfRef X Y r j := by
  rw [val_main_v18_apply, val_main_v17_apply, val_main_v16_apply, val_main_cst_3_apply, val_main_v15_apply,
    val_main_v13_apply, val_main_v14_apply, val_main_cst_2_apply, val_main_v8_apply, val_main_v12_apply,
    val_main_v11_apply, val_main_cst_1_apply, v6_eq, v7_eq, v10_eq]
  simp only [Ideal.hostUnary_exp_def, Ideal.mulf_def, Ideal.maximumf_def, Ideal.subf_def, Ideal.addf_def,
    Ideal.ofBits_def]
  rfl

/-! ## The first layer: one contraction over all 8192 training rows -/

theorem v19_eq (X : AX) (Y : AY) (W1 : AW1) (r : Fin 4096) (h : Fin 8) :
    val_main_v19 (F := Ideal) X Y W1 (ix2 r h) = accRef X Y W1 r h := by
  have el : ∀ k : Fin 8192, lidx_main_v19 (ix2 r h) k = ix2 r k := fun k =>
    funext fun a => Fin.ext (by match a with | ⟨0, _⟩ => rfl | ⟨1, _⟩ => rfl)
  have er : ∀ k : Fin 8192, ridx_main_v19 (ix2 r h) k = ix2 k h := fun k =>
    funext fun a => Fin.ext (by match a with | ⟨0, _⟩ => rfl | ⟨1, _⟩ => rfl)
  rw [val_main_v19_apply]
  simp only [el, er, v18_eq]
  rfl

/-! ## The small network -/

/-- The first hidden layer: `tanh` of the first-layer sum plus the bias `b1[h]` (broadcast along the rows). -/
theorem v23_eq (X : AX) (Y : AY) (W1 : AW1) (b1 : AB1) (r : Fin 4096) (h : Fin 8) :
    val_main_v23 (F := Ideal) X Y W1 b1 (ix2 r h) = Ideal.tanh (accRef X Y W1 r h + b1 (ix1 h)) := by
  have e : idx_main_v20 (idx_main_v21 (ix2 r h)) = ix1 h :=
    funext fun a => Fin.ext (by match a with | ⟨0, _⟩ => rfl)
  rw [val_main_v23_apply, val_main_v22_apply, val_main_v21_apply, val_main_v20_apply, v19_eq, e]
  simp only [Ideal.hostUnary_tanh_def, Ideal.addf_def]

/-- The second hidden layer: `tanh` of the contraction of the first hidden layer with `W2`, plus `b2[q]`. -/
theorem v28_eq (X : AX) (Y : AY) (W1 : AW1) (b1 : AB1) (W2 : AW2) (b2 : AB2) (r : Fin 4096) (q : Fin 4) :
    val_main_v28 (F := Ideal) X Y W1 b1 W2 b2 (ix2 r q)
      = Ideal.tanh ((∑ h : Fin 8, Ideal.tanh (accRef X Y W1 r h + b1 (ix1 h)) * W2 (ix2 h q)) + b2 (ix1 q)) := by
  have el : ∀ k : Fin 8, lidx_main_v24 (ix2 r q) k = ix2 r k := fun k =>
    funext fun a => Fin.ext (by match a with | ⟨0, _⟩ => rfl | ⟨1, _⟩ => rfl)
  have er : ∀ k : Fin 8, ridx_main_v24 (ix2 r q) k = ix2 k q := fun k =>
    funext fun a => Fin.ext (by match a with | ⟨0, _⟩ => rfl | ⟨1, _⟩ => rfl)
  have e : idx_main_v25 (idx_main_v26 (ix2 r q)) = ix1 q :=
    funext fun a => Fin.ext (by match a with | ⟨0, _⟩ => rfl)
  rw [val_main_v28_apply, val_main_v27_apply, val_main_v26_apply, val_main_v25_apply, val_main_v24_apply, e]
  simp only [el, er, v23_eq, Ideal.hostUnary_tanh_def, Ideal.addf_def]

/-- The output column: the contraction of the second hidden layer with `W3`, plus `b3[0]`. -/
theorem v32_eq (X : AX) (Y : AY) (W1 : AW1) (b1 : AB1) (W2 : AW2) (b2 : AB2) (W3 : AW3) (b3 : AB3)
    (r : Fin 4096) :
    val_main_v32 (F := Ideal) X Y W1 b1 W2 b2 W3 b3 (ix2 r (0 : Fin 1))
      = mlp (accRef X Y W1 r) b1 W2 b2 W3 b3 := by
  have el : ∀ k : Fin 4, lidx_main_v29 (ix2 r (0 : Fin 1)) k = ix2 r k := fun k =>
    funext fun a => Fin.ext (by match a with | ⟨0, _⟩ => rfl | ⟨1, _⟩ => rfl)
  have er : ∀ k : Fin 4, ridx_main_v29 (ix2 r (0 : Fin 1)) k = ix2 k (0 : Fin 1) := fun k =>
    funext fun a => Fin.ext (by match a with | ⟨0, _⟩ => rfl | ⟨1, _⟩ => rfl)
  have e : idx_main_v30 (idx_main_v31 (ix2 r (0 : Fin 1))) = ix1 (0 : Fin 1) :=
    funext fun a => Fin.ext (by match a with | ⟨0, _⟩ => rfl)
  rw [val_main_v32_apply, val_main_v31_apply, val_main_v30_apply, val_main_v29_apply, e]
  simp only [el, er, v28_eq, Ideal.addf_def]
  rfl

/-! ## The reference is `G` -/

/-- The reference's result array, as a function of the eight argument arrays, is `Cert.Spec.G`: the final reshape
    reads the 4096 × 1 column at `(i, 0)`. -/
theorem ref_eq (X : Cert.Spec.AX) (Y : Cert.Spec.AY) (W1 : Cert.Spec.AW1) (b1 : Cert.Spec.AB1) (W2 : Cert.Spec.AW2)
    (b2 : Cert.Spec.AB2) (W3 : Cert.Spec.AW3) (b3 : Cert.Spec.AB3) :
    Cert.ReferenceIdeal.Read.val_main_v33 (F := Ideal) X Y W1 b1 W2 b2 W3 b3 = Cert.Spec.G X Y W1 b1 W2 b2 W3 b3 := by
  funext i
  obtain ⟨r, rfl⟩ : ∃ r : Fin 4096, i = ix1 r := ⟨i 0, eq_ix1 i⟩
  have e : idx_main_v33 (ix1 r) = ix2 r (0 : Fin 1) :=
    funext fun a => Fin.ext (by match a with | ⟨0, _⟩ => exact Nat.div_one _ | ⟨1, _⟩ => rfl)
  rw [val_main_v33_apply, e, v32_eq]
  rfl

end Cert.ReferenceIdeal.RefValue

end
-- ==== Proof.Finite.lean ====
/-
  Finiteness of the first two arguments, read out of the precondition.

  The precondition is the conjunction of eight statements "every entry x of this argument has |x| < +∞", each
  printed as a comparison of |x| = max x (-x) against the word +∞, reduced by "and" over all axes from the
  constant 1.  When the conjunction is 1, every conjunct is 1, so every entry of the comparison array is 1, so
  max x (-x) < ⊤ for every entry x of the argument: x is neither ⊤ nor ⊥, hence a real number.  Only the first
  two arguments (X and X_train) are read here.
-/
import proofs.«168606_j65481071399956_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has one index. -/
instance : Subsingleton S_.Idx := ⟨fun a b => funext fun d => d.elim0⟩

/-- An extended real whose absolute value `max x (-x)` is below the word `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ a : ℝ, x = (a : EReal) := by
  have hw : Ideal.ofBits .f32 0x7F800000#32 = (⊤ : EReal) := by simp [Ideal.ofBits, Ideal.ieee]
  have h' : Ideal.cmp .olt (max x (-x)) (Ideal.ofBits .f32 0x7F800000#32) = 1#1 := h
  rw [hw] at h'
  have hlt : max x (-x) < ⊤ := by
    by_contra hn
    simp [Ideal.cmp, hn] at h'
  induction x using EReal.rec with
  | bot => simp at hlt
  | coe a => exact ⟨a, rfl⟩
  | top => simp at hlt

/-- Under the precondition every entry of the first two arguments is a real number. -/
theorem real_of_pre [Cert.Pre_finite_inputs.Facts]
    (x0 : FVec Ideal S4096x512 .f32) (x1 : FVec Ideal S8192x512 .f32) (x2 : FVec Ideal S8192x8 .f32)
    (x3 : FVec Ideal S8 .f32) (x4 : FVec Ideal S8x4 .f32) (x5 : FVec Ideal S4 .f32) (x6 : FVec Ideal S4x1 .f32)
    (x7 : FVec Ideal S1 .f32)
    (h : Cert.Pre_finite_inputs.fn (F := Ideal) x0 x1 x2 x3 x4 x5 x6 x7 = fun _ => 1#1) :
    (∀ i, ∃ a : ℝ, x0 i = (a : EReal)) ∧ (∀ i, ∃ a : ℝ, x1 i = (a : EReal)) := by
  have e := congrFun h ValueIdx.ix0
  dsimp only [fn, fn_part1, fn_part2] at e
  simp only [andi, IntOp.andi_eq_one] at e
  obtain ⟨⟨⟨⟨⟨⟨⟨e0, e1⟩, -⟩, -⟩, -⟩, -⟩, -⟩, -⟩ := e
  refine ⟨fun i => real_of_abs_lt _ ?_, fun i => real_of_abs_lt _ ?_⟩
  · have := Host.reduce_andi_all _ _ _ _ _ e0 i
    exact this
  · exact Host.reduce_andi_all _ _ _ _ _ e1 i

end Cert.Finite

end
-- ==== Proof.Consts.lean ====
/-
  The float constants the two programs spell, as the extended reals their bit patterns denote.
  The kernel scales the cross term by the word `0x3B03126F` (printed 2.0e-3) and the squared norms by
  `0xBA83126F` (printed -1.0e-3); the reference multiplies the clamped squared distance by the same
  `0xBA83126F` and the cross term by `2.0`. The first word denotes `8589935 / 2^32` and the second
  `-(8589935 / 2^33)`: the first is exactly `-2` times the second, which is what lets the kernel's
  folded exponent `2γ·ab - γ·a² - γ·b²` meet the reference's `-γ·(a² + b² - 2·ab)`.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- The word printed `-1.0e-3` denotes `-(8589935 / 2^33)`. -/
theorem ofBits_neg_gamma :
    Ideal.ofBits .f32 0xBA83126F#32 = ((-(8589935 / 8589934592) : ℝ) : EReal) := by
  simp [Ideal.ofBits, Ideal.ieee, -EReal.coe_mul]; norm_num

/-- The word printed `2.0e-3` denotes `8589935 / 2^32`, twice the magnitude of the word above. -/
theorem ofBits_two_gamma :
    Ideal.ofBits .f32 0x3B03126F#32 = ((8589935 / 4294967296 : ℝ) : EReal) := by
  simp [Ideal.ofBits, Ideal.ieee, -EReal.coe_mul]; norm_num

end Cert.Consts

end
-- ==== Proof.Law.lean ====
/-
  The blocked program's function `GK` is the reference's function `G` when the entries of X and X_train are
  real numbers.

  Two facts.  First, the two spellings of the radial kernel entry agree.  With real squared norms s1, s2 and
  real cross term d (finite sums of products of reals are reals), and with the two printed words denoting
  c = -(8589935 / 2^33) < 0 and 8589935 / 2^32 = -2c, one has on the reals
      min(-2c·d + c·s1 + c·s2, 0) = c · max(s1 + s2 - 2·d, 0):
  the left argument is c·(s1 + s2 - 2d), and multiplying by the negative c turns the maximum with 0 into the
  minimum with 0.  The identity moves to the extended reals because the coercion commutes with +, -, ·, min, max.
  Second, a sum over the 8192 training rows is the sum of its four consecutive blocks of 2048 rows; adding
  the blocks one after the other onto the zero word (which denotes 0) is the same sum, since addition of
  extended reals is commutative and associative.
-/
import proofs.«168606_j65481071399956_2_alg».proof.Proof.Spec
import proofs.«168606_j65481071399956_2_alg».proof.Proof.Consts

noncomputable section

open scoped BigOperators

namespace Cert.Law

open Idealize.ShloMosaic Idealize.ShloMosaic.ValueIdx Cert.Spec

/-! ## The four words -/

theorem zero_eq : zero = (0 : EReal) := Cert.Consts.ofBits_zero
theorem two_eq : two = ((2 : ℝ) : EReal) := Cert.Consts.ofBits_two
theorem negG_eq : negG = ((-(8589935 / 8589934592) : ℝ) : EReal) := Cert.Consts.ofBits_neg_gamma
theorem twoG_eq : twoG = ((8589935 / 4294967296 : ℝ) : EReal) := Cert.Consts.ofBits_two_gamma

/-! ## Finite sums of reals are reals -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- The squared norm of a row of real entries is a real. -/
theorem sqX_real (X : AX) (hX : ∀ i, ∃ a : ℝ, X i = (a : EReal)) (r : Fin 4096) :
    ∃ s : ℝ, sqX X r = (s : EReal) := by
  choose f hf using hX
  refine ⟨∑ d : Fin 512, f (ix2 r d) * f (ix2 r d), ?_⟩
  unfold sqX
  rw [zero_eq, zero_add, coe_sum]
  refine Finset.sum_congr rfl fun d _ => ?_
  rw [hf, EReal.coe_mul]

theorem sqY_real (Y : AY) (hY : ∀ i, ∃ a : ℝ, Y i = (a : EReal)) (j : Fin 8192) :
    ∃ s : ℝ, sqY Y j = (s : EReal) := by
  choose g hg using hY
  refine ⟨∑ d : Fin 512, g (ix2 j d) * g (ix2 j d), ?_⟩
  unfold sqY
  rw [zero_eq, zero_add, coe_sum]
  refine Finset.sum_congr rfl fun d _ => ?_
  rw [hg, EReal.coe_mul]

/-- The inner product of two rows of real entries is a real. -/
theorem dotXY_real (X : AX) (Y : AY) (hX : ∀ i, ∃ a : ℝ, X i = (a : EReal))
    (hY : ∀ i, ∃ a : ℝ, Y i = (a : EReal)) (r : Fin 4096) (j : Fin 8192) :
    ∃ s : ℝ, dotXY X Y r j = (s : EReal) := by
  choose f hf using hX
  choose g hg using hY
  refine ⟨∑ d : Fin 512, f (ix2 r d) * g (ix2 j d), ?_⟩
  unfold dotXY
  rw [coe_sum]
  refine Finset.sum_congr rfl fun d _ => ?_
  rw [hf, hg, EReal.coe_mul]

/-! ## The two spellings of the exponent -/

/-- On the reals: with `c = -(8589935 / 2^33)`, `min(-2c·d + c·s1 + c·s2, 0) = c · max(s1 + s2 - 2d, 0)`. -/
theorem fold_real (s1 s2 d : ℝ) :
    min (((8589935 / 4294967296 : ℝ) * d + (-(8589935 / 8589934592) : ℝ) * s1) + (-(8589935 / 8589934592) : ℝ) * s2) 0
      = (-(8589935 / 8589934592) : ℝ) * max ((s1 + s2) - 2 * d) 0 := by
  rcases le_total ((s1 + s2) - 2 * d) 0 with h | h
  · rw [max_eq_right h, min_eq_right (by linarith), mul_zero]
  · rw [max_eq_left h, min_eq_left (by linarith)]
    ring

/-- The kernel entry with γ folded into the exponent is the reference's kernel entry. -/
theorem rbfKer_eq_rbfRef (X : Cert.Spec.AX) (Y : Cert.Spec.AY) (hX : ∀ i, ∃ a : ℝ, X i = (a : EReal))
    (hY : ∀ i, ∃ a : ℝ, Y i = (a : EReal)) (r : Fin 4096) (j : Fin 8192) :
    Cert.Spec.rbfKer X Y r j = Cert.Spec.rbfRef X Y r j := by
  obtain ⟨s1, h1⟩ := sqX_real X hX r
  obtain ⟨s2, h2⟩ := sqY_real Y hY j
  obtain ⟨d, hd⟩ := dotXY_real X Y hX hY r j
  unfold rbfKer rbfRef
  rw [h1, h2, hd, zero_eq, two_eq, negG_eq, twoG_eq]
  congr 1
  rw [← EReal.coe_zero, ← EReal.coe_mul, ← EReal.coe_mul, ← EReal.coe_mul, ← EReal.coe_mul, ← EReal.coe_add,
    ← EReal.coe_add, ← EReal.coe_add, ← EReal.coe_sub, ← coe_min, ← coe_max, ← EReal.coe_mul, fold_real]

/-! ## The sum over the training rows, block by block -/

/-- Row `j'` of block `b`, for `b < 4`, is row `2048·b + j'`: the pair `(b, j')` under the standard
    identification of `Fin 4 × Fin 2048` with `Fin 8192`. -/
theorem blk_eq (b : Fin 4) (j' : Fin 2048) :
    ((finProdFinEquiv : Fin 4 × Fin 2048 ≃ Fin 8192) (b, j')) = colOf b.val j' := by
  apply Fin.ext
  have hb := b.isLt
  have hj := j'.isLt
  show j'.val + 2048 * b.val = (2048 * b.val + j'.val) % 8192
  omega

/-- A sum over the 8192 training rows is the sum of its four blocks of 2048 rows. -/
theorem sum_blocks (f : Fin 8192 → EReal) :
    ∑ j : Fin 8192, f j
      = ((∑ j' : Fin 2048, f (colOf 0 j') + ∑ j' : Fin 2048, f (colOf 1 j')) + ∑ j' : Fin 2048, f (colOf 2 j'))
        + ∑ j' : Fin 2048, f (colOf 3 j') := by
  rw [← Equiv.sum_comp (finProdFinEquiv : Fin 4 × Fin 2048 ≃ Fin 8192) f, Fintype.sum_prod_type, Fin.sum_univ_four]
  simp only [blk_eq]
  rfl

/-- The four blocks' shares, added one after the other onto the zero word, are the reference's first-layer sum. -/
theorem accUpTo_three (X : Cert.Spec.AX) (Y : Cert.Spec.AY) (W1 : Cert.Spec.AW1)
    (hX : ∀ i, ∃ a : ℝ, X i = (a : EReal)) (hY : ∀ i, ∃ a : ℝ, Y i = (a : EReal)) (r : Fin 4096) (h : Fin 8) :
    Cert.Spec.accUpTo X Y W1 3 r h = Cert.Spec.accRef X Y W1 r h := by
  have hu : accUpTo X Y W1 3 r h
      = (((zero + part X Y W1 0 r h) + part X Y W1 1 r h) + part X Y W1 2 r h) + part X Y W1 3 r h := rfl
  rw [hu, zero_eq, zero_add]
  unfold accRef part
  rw [sum_blocks (fun j => rbfRef X Y r j * W1 (ix2 j h))]
  simp only [rbfKer_eq_rbfRef X Y hX hY]

/-! ## The two functions agree -/

theorem GK_eq_G (X : Cert.Spec.AX) (Y : Cert.Spec.AY) (W1 : Cert.Spec.AW1) (b1 : Cert.Spec.AB1) (W2 : Cert.Spec.AW2)
    (b2 : Cert.Spec.AB2) (W3 : Cert.Spec.AW3) (b3 : Cert.Spec.AB3)
    (hX : ∀ i, ∃ a : ℝ, X i = (a : EReal)) (hY : ∀ i, ∃ a : ℝ, Y i = (a : EReal)) :
    Cert.Spec.GK X Y W1 b1 W2 b2 W3 b3 = Cert.Spec.G X Y W1 b1 W2 b2 W3 b3 := by
  funext i
  show mlp (accUpTo X Y W1 3 (i 0)) b1 W2 b2 W3 b3 = mlp (accRef X Y W1 (i 0)) b1 W2 b2 W3 b3
  exact congrArg (fun a => mlp a b1 W2 b2 W3 b3) (funext fun h => accUpTo_three X Y W1 hX hY (i 0) h)

end Cert.Law

end
-- ==== Proof.Pieces.lean ====
/-
  What one run of the body leaves behind, as plain terms of the blocks it loaded.

  The body has three ways to run, by the position `j` of the training-row block within a row block of X:
    first block (`j = 0`): the running sum is reset to the zero block and this block's share is added to it;
    middle blocks: this block's share is added to the running sum the block before left;
    last block (`j = 3`): the same, and then the small network is applied to the finished sum and stored as
    the output block.
  Each store covers its whole buffer, so what a buffer holds afterwards is the last store's value, and a load
  that follows a store reads that store's value.  Here: the running sum after the body is
  `k0_pay3 (inputs) (sum before)` (with `k0_pay2`, the zero block, as the sum before in the first case), and
  the output block in the last case is `k0_pay1` of that new sum and the network's weights.
-/
import proofs.«168606_j65481071399956_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First block of a row: the running sum ends at the zero block plus this block's share. -/
theorem scratch_A (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x8 .bf16) (harg6 : arg6.IsWhole) (arg7 : Memref sig .tc .vmem S8x4 .f32) (harg7 : arg7.IsWhole) (arg8 : Memref sig .tc .vmem S4x1 .f32) (harg8 : arg8.IsWhole) (arg9 : Memref sig .tc .vmem S8 .f32) (harg9 : arg9.IsWhole) (arg10 : Memref sig .tc .vmem S4 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x8 .f32) (harg13 : arg13.IsWhole) (hc0 : cond0_0 i) (hc1 : ¬cond0_1 i)
    (x0 : Vec F S1024x512 .bf16) (x1 : Vec F S2048x512 .bf16) (x2 : Vec F S1024x1 .f32) (x3 : Vec F S1x2048 .f32) (x4 : Vec F S2048x8 .bf16) (x5 : Vec F S8x4 .f32) (x6 : Vec F S4x1 .f32) (x7 : Vec F S8 .f32) (x8 : Vec F S4 .f32) (x9 : Vec F S1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = k0_pay3 x0 x1 x2 x3 x4 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S1024x8) hz2, View.readCov_unit_zero (S := S1024x8) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x512) hz2, View.ld_unit_zero (S := S2048x512) hz2, View.ld_unit_zero (S := S1024x1) hz2, View.ld_unit_zero (S := S1x2048) hz2, View.ld_unit_zero (S := S2048x8) hz2, View.ld_unit_zero (S := S1024x8) hz2, View.ld_unit_zero (S := S8x4) hz2, View.ld_unit_zero (S := S4x1) hz2, View.ld_unit_zero (S := S8) hz1, View.ld_unit_zero (S := S4) hz1, View.ld_unit_zero (S := S1) hz1]

/-- A middle block: the running sum `xs0` ends at `xs0` plus this block's share. -/
theorem scratch_B (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x8 .bf16) (harg6 : arg6.IsWhole) (arg7 : Memref sig .tc .vmem S8x4 .f32) (harg7 : arg7.IsWhole) (arg8 : Memref sig .tc .vmem S4x1 .f32) (harg8 : arg8.IsWhole) (arg9 : Memref sig .tc .vmem S8 .f32) (harg9 : arg9.IsWhole) (arg10 : Memref sig .tc .vmem S4 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x8 .f32) (harg13 : arg13.IsWhole) (hc0 : ¬cond0_0 i) (hc1 : ¬cond0_1 i)
    (x0 : Vec F S1024x512 .bf16) (x1 : Vec F S2048x512 .bf16) (x2 : Vec F S1024x1 .f32) (x3 : Vec F S1x2048 .f32) (x4 : Vec F S2048x8 .bf16) (x5 : Vec F S8x4 .f32) (x6 : Vec F S4x1 .f32) (x7 : Vec F S8 .f32) (x8 : Vec F S4 .f32) (x9 : Vec F S1 .f32) (xs0 : Vec F S1024x8 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k0_pay3 x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x512) hz2, View.ld_unit_zero (S := S2048x512) hz2, View.ld_unit_zero (S := S1024x1) hz2, View.ld_unit_zero (S := S1x2048) hz2, View.ld_unit_zero (S := S2048x8) hz2, View.ld_unit_zero (S := S1024x8) hz2, View.ld_unit_zero (S := S8x4) hz2, View.ld_unit_zero (S := S4x1) hz2, View.ld_unit_zero (S := S8) hz1, View.ld_unit_zero (S := S4) hz1, View.ld_unit_zero (S := S1) hz1]

/-- The last block: the running sum ends the same way, -/
theorem scratch_C (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x8 .bf16) (harg6 : arg6.IsWhole) (arg7 : Memref sig .tc .vmem S8x4 .f32) (harg7 : arg7.IsWhole) (arg8 : Memref sig .tc .vmem S4x1 .f32) (harg8 : arg8.IsWhole) (arg9 : Memref sig .tc .vmem S8 .f32) (harg9 : arg9.IsWhole) (arg10 : Memref sig .tc .vmem S4 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x8 .f32) (harg13 : arg13.IsWhole) (hc0 : ¬cond0_0 i) (hc1 : cond0_1 i)
    (x0 : Vec F S1024x512 .bf16) (x1 : Vec F S2048x512 .bf16) (x2 : Vec F S1024x1 .f32) (x3 : Vec F S1x2048 .f32) (x4 : Vec F S2048x8 .bf16) (x5 : Vec F S8x4 .f32) (x6 : Vec F S4x1 .f32) (x7 : Vec F S8 .f32) (x8 : Vec F S4 .f32) (x9 : Vec F S1 .f32) (xs0 : Vec F S1024x8 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k0_pay3 x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x512) hz2, View.ld_unit_zero (S := S2048x512) hz2, View.ld_unit_zero (S := S1024x1) hz2, View.ld_unit_zero (S := S1x2048) hz2, View.ld_unit_zero (S := S2048x8) hz2, View.ld_unit_zero (S := S1024x8) hz2, View.ld_unit_zero (S := S8x4) hz2, View.ld_unit_zero (S := S4x1) hz2, View.ld_unit_zero (S := S8) hz1, View.ld_unit_zero (S := S4) hz1, View.ld_unit_zero (S := S1) hz1]

/-- and the output block is the small network applied to that finished sum. -/
theorem out_C (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S2048x8 .bf16) (harg6 : arg6.IsWhole) (arg7 : Memref sig .tc .vmem S8x4 .f32) (harg7 : arg7.IsWhole) (arg8 : Memref sig .tc .vmem S4x1 .f32) (harg8 : arg8.IsWhole) (arg9 : Memref sig .tc .vmem S8 .f32) (harg9 : arg9.IsWhole) (arg10 : Memref sig .tc .vmem S4 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x8 .f32) (harg13 : arg13.IsWhole) (hc0 : ¬cond0_0 i) (hc1 : cond0_1 i)
    (x0 : Vec F S1024x512 .bf16) (x1 : Vec F S2048x512 .bf16) (x2 : Vec F S1024x1 .f32) (x3 : Vec F S1x2048 .f32) (x4 : Vec F S2048x8 .bf16) (x5 : Vec F S8x4 .f32) (x6 : Vec F S4x1 .f32) (x7 : Vec F S8 .f32) (x8 : Vec F S4 .f32) (x9 : Vec F S1 .f32) (xs0 : Vec F S1024x8 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k0_pay1 (k0_pay3 x0 x1 x2 x3 x4 xs0) x7 x5 x8 x6 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz2, View.readCov_unit_zero (S := S1024x8) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x512) hz2, View.ld_unit_zero (S := S2048x512) hz2, View.ld_unit_zero (S := S1024x1) hz2, View.ld_unit_zero (S := S1x2048) hz2, View.ld_unit_zero (S := S2048x8) hz2, View.ld_unit_zero (S := S1024x8) hz2, View.ld_unit_zero (S := S8x4) hz2, View.ld_unit_zero (S := S4x1) hz2, View.ld_unit_zero (S := S8) hz1, View.ld_unit_zero (S := S4) hz1, View.ld_unit_zero (S := S1) hz1]

end Cert.KernelIdeal.KValue

end
-- ==== Proof.PayIdx.lean ====
/-
  The body's three stored values read at one index, at the exact (extended-real) instance.

  A matrix product into a zero accumulator is, entry by entry, the plain sum over the contracted axis; a change of
  float format is the identity; a column [a,1] spread over [a,b] reads its row's one entry, a row [1,b] its column's.
  So, with x0 a block of 1024 rows of X, x1 a block of 2048 training rows, x2 / x3 their squared norms (a column and
  a row), x4 the matching 2048 rows of W1 and `a` the running sum so far:
    the new running sum at (p, h) is  a(p,h) + Σ_k exp(min(2γ·(Σ_d x0(p,d)·x1(k,d)) + (-γ)·x2(p,0) + (-γ)·x3(0,k), 0)) · x4(k,h);
    the zero block is the zero word everywhere;
    the output block at (p, 0) is the small network of Spec.lean applied to row p of the finished sum.
-/
import proofs.«168606_j65481071399956_2_alg».proof.Proof.Gen.KernelIdeal.Skeleton
import proofs.«168606_j65481071399956_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen Cert.Spec

/-- A column `[a, 1]` spread over `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `[1024,512] · [2048,512]ᵀ` into a zero accumulator, read at `(p, q)`: row `p` of the first against row `q` of
    the second, summed over the 512 shared columns. -/
theorem mm_rows (l : FVec Ideal S1024x512 .bf16) (r : FVec Ideal S2048x512 .bf16) (p : Fin 1024) (q : Fin 2048) :
    matmul dot_S1024x512_S2048x512_S1024x2048_1_1_0_0_n_n none l r (constant (F := Ideal) S1024x2048 .f32 0x00000000#32) (ix2 p q)
      = ∑ k : Fin 512, l (ix2 p k) * r (ix2 q k) := by
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ =>
      show (dot_S1024x512_S2048x512_S1024x2048_1_1_0_0_n_n.lhsIdx (ix2 p q) ((contrEquiv1 dot_S1024x512_S2048x512_S1024x2048_1_1_0_0_n_n 512 rfl rfl).symm k) 0).val = p.val
      unfold DotDims.lhsIdx
      rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
      rfl
    | ⟨1, _⟩ => exact (dot_S1024x512_S2048x512_S1024x2048_1_1_0_0_n_n.lhsIdx_val_of_single rfl _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ =>
      show (dot_S1024x512_S2048x512_S1024x2048_1_1_0_0_n_n.rhsIdx (ix2 p q) ((contrEquiv1 dot_S1024x512_S2048x512_S1024x2048_1_1_0_0_n_n 512 rfl rfl).symm k) 0).val = q.val
      unfold DotDims.rhsIdx
      rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
      rfl
    | ⟨1, _⟩ => exact (dot_S1024x512_S2048x512_S1024x2048_1_1_0_0_n_n.rhsIdx_val_of_single rfl _ _).trans hk)
  rw [el, er]

/-- `[1024,2048] · [2048,8]` into a zero accumulator, read at `(p, q)`: the sum over the shared axis. -/
theorem mm_kw (l : FVec Ideal S1024x2048 .bf16) (r : FVec Ideal S2048x8 .bf16) (p : Fin 1024) (q : Fin 8) :
    matmul dot_S1024x2048_S2048x8_S1024x8_1_0_0_1_n_n none l r (constant (F := Ideal) S1024x8 .f32 0x00000000#32) (ix2 p q)
      = ∑ k : Fin 2048, l (ix2 p k) * r (ix2 k q) := by
  simp only [matmul]
  rw [Ideal.matmul_constant_zero_apply, ← Equiv.sum_comp (contrEquiv1 dot_S1024x2048_S2048x8_S1024x8_1_0_0_1_n_n 2048 rfl rfl).symm]
  refine Finset.sum_congr rfl fun k _ => ?_
  have hk := contrEquiv1_symm_val dot_S1024x2048_S2048x8_S1024x8_1_0_0_1_n_n 2048 rfl rfl k
  have el : dot_S1024x2048_S2048x8_S1024x8_1_0_0_1_n_n.lhsIdx (ix2 p q) ((contrEquiv1 dot_S1024x2048_S2048x8_S1024x8_1_0_0_1_n_n 2048 rfl rfl).symm k) = ix2 p k := funext fun a => Fin.ext (by
    match a with
    | ⟨0, _⟩ =>
      show (dot_S1024x2048_S2048x8_S1024x8_1_0_0_1_n_n.lhsIdx (ix2 p q) ((contrEquiv1 dot_S1024x2048_S2048x8_S1024x8_1_0_0_1_n_n 2048 rfl rfl).symm k) 0).val = p.val
      unfold DotDims.lhsIdx
      rw [dif_neg (show ¬(0 : Fin S1024x2048.rank) ∈ dot_S1024x2048_S2048x8_S1024x8_1_0_0_1_n_n.lhsBatch by decide), dif_pos (show (0 : Fin S1024x2048.rank) ∈ dot_S1024x2048_S2048x8_S1024x8_1_0_0_1_n_n.lhsNonContracting by decide)]
      rfl
    | ⟨1, _⟩ => exact (dot_S1024x2048_S2048x8_S1024x8_1_0_0_1_n_n.lhsIdx_val_of_single rfl _ _).trans hk)
  have er : dot_S1024x2048_S2048x8_S1024x8_1_0_0_1_n_n.rhsIdx (ix2 p q) ((contrEquiv1 dot_S1024x2048_S2048x8_S1024x8_1_0_0_1_n_n 2048 rfl rfl).symm k) = ix2 k q := funext fun a => Fin.ext (by
    match a with
    | ⟨0, _⟩ => exact (dot_S1024x2048_S2048x8_S1024x8_1_0_0_1_n_n.rhsIdx_val_of_single rfl _ _).trans hk
    | ⟨1, _⟩ =>
      show (dot_S1024x2048_S2048x8_S1024x8_1_0_0_1_n_n.rhsIdx (ix2 p q) ((contrEquiv1 dot_S1024x2048_S2048x8_S1024x8_1_0_0_1_n_n 2048 rfl rfl).symm k) 1).val = q.val
      unfold DotDims.rhsIdx
      rw [dif_neg (show ¬(1 : Fin S2048x8.rank) ∈ dot_S1024x2048_S2048x8_S1024x8_1_0_0_1_n_n.rhsBatch by decide), dif_pos (show (1 : Fin S2048x8.rank) ∈ dot_S1024x2048_S2048x8_S1024x8_1_0_0_1_n_n.rhsNonContracting by decide)]
      rfl)
  rw [el, er]

/-- `[1024,8] · [8,4]` into a zero accumulator, read at `(p, q)`: the sum over the shared axis. -/
theorem mm_h1 (l : FVec Ideal S1024x8 .bf16) (r : FVec Ideal S8x4 .bf16) (p : Fin 1024) (q : Fin 4) :
    matmul dot_S1024x8_S8x4_S1024x4_1_0_0_1_n_n none l r (constant (F := Ideal) S1024x4 .f32 0x00000000#32) (ix2 p q)
      = ∑ k : Fin 8, l (ix2 p k) * r (ix2 k q) := by
  simp only [matmul]
  rw [Ideal.matmul_constant_zero_apply, ← Equiv.sum_comp (contrEquiv1 dot_S1024x8_S8x4_S1024x4_1_0_0_1_n_n 8 rfl rfl).symm]
  refine Finset.sum_congr rfl fun k _ => ?_
  have hk := contrEquiv1_symm_val dot_S1024x8_S8x4_S1024x4_1_0_0_1_n_n 8 rfl rfl k
  have el : dot_S1024x8_S8x4_S1024x4_1_0_0_1_n_n.lhsIdx (ix2 p q) ((contrEquiv1 dot_S1024x8_S8x4_S1024x4_1_0_0_1_n_n 8 rfl rfl).symm k) = ix2 p k := funext fun a => Fin.ext (by
    match a with
    | ⟨0, _⟩ =>
      show (dot_S1024x8_S8x4_S1024x4_1_0_0_1_n_n.lhsIdx (ix2 p q) ((contrEquiv1 dot_S1024x8_S8x4_S1024x4_1_0_0_1_n_n 8 rfl rfl).symm k) 0).val = p.val
      unfold DotDims.lhsIdx
      rw [dif_neg (show ¬(0 : Fin S1024x8.rank) ∈ dot_S1024x8_S8x4_S1024x4_1_0_0_1_n_n.lhsBatch by decide), dif_pos (show (0 : Fin S1024x8.rank) ∈ dot_S1024x8_S8x4_S1024x4_1_0_0_1_n_n.lhsNonContracting by decide)]
      rfl
    | ⟨1, _⟩ => exact (dot_S1024x8_S8x4_S1024x4_1_0_0_1_n_n.lhsIdx_val_of_single rfl _ _).trans hk)
  have er : dot_S1024x8_S8x4_S1024x4_1_0_0_1_n_n.rhsIdx (ix2 p q) ((contrEquiv1 dot_S1024x8_S8x4_S1024x4_1_0_0_1_n_n 8 rfl rfl).symm k) = ix2 k q := funext fun a => Fin.ext (by
    match a with
    | ⟨0, _⟩ => exact (dot_S1024x8_S8x4_S1024x4_1_0_0_1_n_n.rhsIdx_val_of_single rfl _ _).trans hk
    | ⟨1, _⟩ =>
      show (dot_S1024x8_S8x4_S1024x4_1_0_0_1_n_n.rhsIdx (ix2 p q) ((contrEquiv1 dot_S1024x8_S8x4_S1024x4_1_0_0_1_n_n 8 rfl rfl).symm k) 1).val = q.val
      unfold DotDims.rhsIdx
      rw [dif_neg (show ¬(1 : Fin S8x4.rank) ∈ dot_S1024x8_S8x4_S1024x4_1_0_0_1_n_n.rhsBatch by decide), dif_pos (show (1 : Fin S8x4.rank) ∈ dot_S1024x8_S8x4_S1024x4_1_0_0_1_n_n.rhsNonContracting by decide)]
      rfl)
  rw [el, er]

/-- `[1024,4] · [4,1]` into a zero accumulator, read at `(p, q)`: the sum over the shared axis. -/
theorem mm_h2 (l : FVec Ideal S1024x4 .bf16) (r : FVec Ideal S4x1 .bf16) (p : Fin 1024) (q : Fin 1) :
    matmul dot_S1024x4_S4x1_S1024x1_1_0_0_1_n_n none l r (constant (F := Ideal) S1024x1 .f32 0x00000000#32) (ix2 p q)
      = ∑ k : Fin 4, l (ix2 p k) * r (ix2 k q) := by
  simp only [matmul]
  rw [Ideal.matmul_constant_zero_apply, ← Equiv.sum_comp (contrEquiv1 dot_S1024x4_S4x1_S1024x1_1_0_0_1_n_n 4 rfl rfl).symm]
  refine Finset.sum_congr rfl fun k _ => ?_
  have hk := contrEquiv1_symm_val dot_S1024x4_S4x1_S1024x1_1_0_0_1_n_n 4 rfl rfl k
  have el : dot_S1024x4_S4x1_S1024x1_1_0_0_1_n_n.lhsIdx (ix2 p q) ((contrEquiv1 dot_S1024x4_S4x1_S1024x1_1_0_0_1_n_n 4 rfl rfl).symm k) = ix2 p k := funext fun a => Fin.ext (by
    match a with
    | ⟨0, _⟩ =>
      show (dot_S1024x4_S4x1_S1024x1_1_0_0_1_n_n.lhsIdx (ix2 p q) ((contrEquiv1 dot_S1024x4_S4x1_S1024x1_1_0_0_1_n_n 4 rfl rfl).symm k) 0).val = p.val
      unfold DotDims.lhsIdx
      rw [dif_neg (show ¬(0 : Fin S1024x4.rank) ∈ dot_S1024x4_S4x1_S1024x1_1_0_0_1_n_n.lhsBatch by decide), dif_pos (show (0 : Fin S1024x4.rank) ∈ dot_S1024x4_S4x1_S1024x1_1_0_0_1_n_n.lhsNonContracting by decide)]
      rfl
    | ⟨1, _⟩ => exact (dot_S1024x4_S4x1_S1024x1_1_0_0_1_n_n.lhsIdx_val_of_single rfl _ _).trans hk)
  have er : dot_S1024x4_S4x1_S1024x1_1_0_0_1_n_n.rhsIdx (ix2 p q) ((contrEquiv1 dot_S1024x4_S4x1_S1024x1_1_0_0_1_n_n 4 rfl rfl).symm k) = ix2 k q := funext fun a => Fin.ext (by
    match a with
    | ⟨0, _⟩ => exact (dot_S1024x4_S4x1_S1024x1_1_0_0_1_n_n.rhsIdx_val_of_single rfl _ _).trans hk
    | ⟨1, _⟩ =>
      show (dot_S1024x4_S4x1_S1024x1_1_0_0_1_n_n.rhsIdx (ix2 p q) ((contrEquiv1 dot_S1024x4_S4x1_S1024x1_1_0_0_1_n_n 4 rfl rfl).symm k) 1).val = q.val
      unfold DotDims.rhsIdx
      rw [dif_neg (show ¬(1 : Fin S4x1.rank) ∈ dot_S1024x4_S4x1_S1024x1_1_0_0_1_n_n.rhsBatch by decide), dif_pos (show (1 : Fin S4x1.rank) ∈ dot_S1024x4_S4x1_S1024x1_1_0_0_1_n_n.rhsNonContracting by decide)]
      rfl)
  rw [el, er]

/-- The zero block is the zero word at every index. -/
theorem pay2_apply (y : S1024x8.Idx) : k0_pay2 (F := Ideal) y = zero := by
  unfold k0_pay2
  simp only [shapeCast_self]
  rfl

/-- The new running sum at `(p, h)`. -/
theorem pay3_apply (x0 : FVec Ideal S1024x512 .bf16) (x1 : FVec Ideal S2048x512 .bf16) (x2 : FVec Ideal S1024x1 .f32)
    (x3 : FVec Ideal S1x2048 .f32) (x4 : FVec Ideal S2048x8 .bf16) (a : FVec Ideal S1024x8 .f32) (p : Fin 1024) (h : Fin 8) :
    k0_pay3 (F := Ideal) x0 x1 x2 x3 x4 a (ix2 p h)
      = a (ix2 p h) + ∑ k : Fin 2048, Ideal.exp (min ((twoG * (∑ d : Fin 512, x0 (ix2 p d) * x1 (ix2 k d))
            + negG * x2 (ix2 p (0 : Fin 1))) + negG * x3 (ix2 (0 : Fin 1) k)) zero) * x4 (ix2 k h) := by
  unfold k0_pay3
  simp only [shapeCast_self]
  refine congrArg (a (ix2 p h) + ·) ?_
  refine (mm_kw _ x4 p h).trans ?_
  refine Finset.sum_congr rfl fun k _ => ?_
  refine congrArg (· * x4 (ix2 k h)) ?_
  refine congrArg Ideal.exp ?_
  refine congrArg (min · zero) ?_
  refine congrArg₂ (· + ·) (congrArg₂ (· + ·) (congrArg (twoG * ·) (mm_rows x0 x1 p k)) ?_) ?_
  · exact (broadcastTo_a1_ab_apply _ _ p k)
  · exact (broadcastTo_1b_ab_apply _ _ p k)

/-- The output block at `(p, 0)`: the small network on row `p` of the finished sum `a`. -/
theorem pay1_apply (a : FVec Ideal S1024x8 .f32) (b1 : FVec Ideal S8 .f32) (W2 : FVec Ideal S8x4 .f32)
    (b2 : FVec Ideal S4 .f32) (W3 : FVec Ideal S4x1 .f32) (b3 : FVec Ideal S1 .f32) (p : Fin 1024) :
    k0_pay1 (F := Ideal) a b1 W2 b2 W3 b3 (ix2 p (0 : Fin 1)) = mlp (fun h => a (ix2 p h)) b1 W2 b2 W3 b3 := by
  unfold k0_pay1 mlp
  refine congrArg₂ (· + ·) ?_ ?_
  · refine (mm_h2 _ _ p 0).trans ?_
    refine Finset.sum_congr rfl fun q _ => ?_
    refine congrArg (· * W3 (ix2 q (0 : Fin 1))) ?_
    refine congrArg Ideal.tanh ?_
    refine congrArg₂ (· + ·) ?_ ?_
    · refine (mm_h1 _ _ p q).trans ?_
      refine Finset.sum_congr rfl fun h _ => ?_
      refine congrArg (· * W2 (ix2 h q)) ?_
      refine congrArg Ideal.tanh ?_
      refine congrArg (a (ix2 p h) + ·) ?_
      exact (broadcastTo_1b_ab_apply _ _ p h).trans (shapeCast_a_1a_apply b1 _ 0 h)
    · exact (broadcastTo_1b_ab_apply _ _ p q).trans (shapeCast_a_1a_apply b2 _ 0 q)
  · exact (broadcastTo_1b_ab_apply _ _ p 0).trans (shapeCast_a_1a_apply b3 _ 0 0)

end Cert.KernelIdeal.KValue

end
-- ==== Proof.Blocks.lean ====
/-
  What each window's block holds at a grid point, in terms of the eight argument arrays.

  The 16 grid points run over (i, j): i = t / 4 picks 1024 rows of X, j = t % 4 picks 2048 training rows.
  Before the region the host has computed, from the arguments: the row squared norms of X as a column and of
  X_train as a row (each a sum onto the zero word), and copies of X, X_train and W1 in a narrower float format,
  which at exact values are the arrays themselves.  So at point t:
    window 0 holds rows 1024·i + p of X,            window 1 rows 2048·j + k of X_train,
    window 2 the squared norms of those rows of X,  window 3 those of the training rows,
    window 4 rows 2048·j + k of W1,                 windows 5–9 the small network's weights whole.
-/
import proofs.«168606_j65481071399956_2_alg».proof.Proof.Gen.KernelIdeal.Frame
import proofs.«168606_j65481071399956_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ)

/-! ## The arrays the host wrote before the region -/

theorem V_v7 (c : Dev nD) (i : S4096x512.Idx) : V m c main_v7 i = m ((c : Thread nD τ).loc main_arg0) i := by
  have e : V m c main_v7 = (truncf .bf16 (show FVec Ideal S4096x512 .f32 from m ((c : Thread nD τ).loc main_arg0)) bitsLt_bf16_f32 : FVec Ideal S4096x512 .bf16) := by
    show StableHlo.after hostOps0 (fun b => m (c, b)) (Proc.devRef .tc main_v7) = _
    after_results <;> rfl
  rw [e]; rfl

theorem V_v8 (c : Dev nD) (i : S8192x512.Idx) : V m c main_v8 i = m ((c : Thread nD τ).loc main_arg1) i := by
  have e : V m c main_v8 = (truncf .bf16 (show FVec Ideal S8192x512 .f32 from m ((c : Thread nD τ).loc main_arg1)) bitsLt_bf16_f32 : FVec Ideal S8192x512 .bf16) := by
    show StableHlo.after hostOps0 (fun b => m (c, b)) (Proc.devRef .tc main_v8) = _
    after_results <;> rfl
  rw [e]; rfl

theorem V_v9 (c : Dev nD) (i : S8192x8.Idx) : V m c main_v9 i = m ((c : Thread nD τ).loc main_arg2) i := by
  have e : V m c main_v9 = (truncf .bf16 (show FVec Ideal S8192x8 .f32 from m ((c : Thread nD τ).loc main_arg2)) bitsLt_bf16_f32 : FVec Ideal S8192x8 .bf16) := by
    show StableHlo.after hostOps0 (fun b => m (c, b)) (Proc.devRef .tc main_v9) = _
    after_results <;> rfl
  rw [e]; rfl

theorem V_v2 (c : Dev nD) : (V m c main_v2 : S4096x1.Idx → EReal)
    = broadcastInDim S4096x1 ![0] bcast_S4096_S4096x1_0 (Host.reduceAdd (F := Ideal)
        (mulf (m ((c : Thread nD τ).loc main_arg0)) (m ((c : Thread nD τ).loc main_arg0)))
        (constant (F := Ideal) S_ .f32 0x00000000#32) reducesTo_S4096x512_S4096_d1 h_S_) := by
  show StableHlo.after hostOps0 (fun b => m (c, b)) (Proc.devRef .tc main_v2) = _
  after_results <;> rfl

theorem V_v6 (c : Dev nD) : (V m c main_v6 : S1x8192.Idx → EReal)
    = transpose S1x8192 [1, 0] (broadcastInDim S8192x1 ![0] bcast_S8192_S8192x1_0 (Host.reduceAdd (F := Ideal)
        (mulf (m ((c : Thread nD τ).loc main_arg1)) (m ((c : Thread nD τ).loc main_arg1)))
        (constant (F := Ideal) S_ .f32 0x00000000#32) reducesTo_S8192x512_S8192_d1 h_S_)) transposes_S8192x1_S1x8192_1_0 := by
  show StableHlo.after hostOps0 (fun b => m (c, b)) (Proc.devRef .tc main_v6) = _
  after_results <;> rfl

/-! ## The grid's index maps, decided once over the 16 points -/

theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val % 4 ∧ win0_4.index t (1 : Fin 2) = 0
    ∧ win0_10.index t (0 : Fin 2) = t.val / 4 ∧ win0_10.index t (1 : Fin 2) = 0 :=
  (by decide +kernel : ∀ t : Fin grid0.N, _)

/-! ## The blocks -/

/-- Window 0 at point `t`: row `p` of the block is row `1024·(t/4) + p` of `X`. -/
theorem iblk0_apply (c : Dev nD) (t : Fin cfg0.N) (p : Fin 1024) (d : Fin 512) :
    iblk m c 0 t (ix2 p d) = m ((c : Thread nD τ).loc main_arg0) (ix2 (rowOf (t.val / 4) p) d) := by
  have hN : t.val < 16 := lt_of_lt_of_eq t.isLt N_0
  obtain ⟨e0, e1, -⟩ := idx_facts t
  unfold iblk
  rw [View.read_apply]
  show V m c main_v7 (((cfg0.win 0).blk t).view.emb (ix2 p d)) = _
  rw [V_v7]
  refine congrArg (m ((c : Thread nD τ).loc main_arg0)) (funext fun a => Fin.ext ?_)
  match a with
  | ⟨0, _⟩ =>
    show win0_0.index t (0 : Fin 2) * 1024 + 1 * p.val = (1024 * (t.val / 4) + p.val) % 4096
    rw [e0]; have := p.isLt; omega
  | ⟨1, _⟩ =>
    show win0_0.index t (1 : Fin 2) * 512 + 1 * d.val = d.val
    rw [e1]; omega

/-- Window 1 at point `t`: row `k` of the block is training row `2048·(t%4) + k`. -/
theorem iblk1_apply (c : Dev nD) (t : Fin cfg0.N) (k : Fin 2048) (d : Fin 512) :
    iblk m c 1 t (ix2 k d) = m ((c : Thread nD τ).loc main_arg1) (ix2 (colOf (t.val % 4) k) d) := by
  obtain ⟨-, -, e0, e1, -⟩ := idx_facts t
  unfold iblk
  rw [View.read_apply]
  show V m c main_v8 (((cfg0.win 1).blk t).view.emb (ix2 k d)) = _
  rw [V_v8]
  refine congrArg (m ((c : Thread nD τ).loc main_arg1)) (funext fun a => Fin.ext ?_)
  match a with
  | ⟨0, _⟩ =>
    show win0_1.index t (0 : Fin 2) * 2048 + 1 * k.val = (2048 * (t.val % 4) + k.val) % 8192
    rw [e0]; have := k.isLt; omega
  | ⟨1, _⟩ =>
    show win0_1.index t (1 : Fin 2) * 512 + 1 * d.val = d.val
    rw [e1]; omega

/-- Window 4 at point `t`: row `k` of the block is row `2048·(t%4) + k` of `W1`. -/
theorem iblk4_apply (c : Dev nD) (t : Fin cfg0.N) (k : Fin 2048) (h : Fin 8) :
    iblk m c 4 t (ix2 k h) = m ((c : Thread nD τ).loc main_arg2) (ix2 (colOf (t.val % 4) k) h) := by
  obtain ⟨-, -, -, -, -, -, -, -, e0, e1, -⟩ := idx_facts t
  unfold iblk
  rw [View.read_apply]
  show V m c main_v9 (((cfg0.win 4).blk t).view.emb (ix2 k h)) = _
  rw [V_v9]
  refine congrArg (m ((c : Thread nD τ).loc main_arg2)) (funext fun a => Fin.ext ?_)
  match a with
  | ⟨0, _⟩ =>
    show win0_4.index t (0 : Fin 2) * 2048 + 1 * k.val = (2048 * (t.val % 4) + k.val) % 8192
    rw [e0]; have := k.isLt; omega
  | ⟨1, _⟩ =>
    show win0_4.index t (1 : Fin 2) * 8 + 1 * h.val = h.val
    rw [e1]; omega

/-- The host's column of squared norms of `X`, read at row `r`. -/
theorem sqX_read (X : FVec Ideal S4096x512 .f32) (r : Fin 4096) :
    broadcastInDim S4096x1 ![0] bcast_S4096_S4096x1_0 (Host.reduceAdd (F := Ideal) (mulf X X)
      (constant (F := Ideal) S_ .f32 0x00000000#32) reducesTo_S4096x512_S4096_d1 h_S_) (ix2 r (0 : Fin 1)) = sqX X r := by
  refine (broadcastInDim_apply _ bcast_S4096_S4096x1_0 _ (ix2 r (0 : Fin 1)) (ix1 r) (fun a => match a with
    | ⟨0, _⟩ => by show r.val = if (4096 : Nat) = 1 then 0 else r.val; rw [if_neg (by decide)])).trans ?_
  simp only [Host.reduceAdd, Ideal.hostReduceAdd_def]
  rw [Ideal.hostReduceAdd_single reducesTo_S4096x512_S4096_d1 (by decide)]
  unfold sqX
  refine congrArg₂ (· + ·) rfl (Finset.sum_congr rfl fun k _ => ?_)
  exact congrArg (fun z => X z * X z) (funext fun a => Fin.ext (by match a with | ⟨0, _⟩ => rfl | ⟨1, _⟩ => rfl))

/-- The host's row of squared norms of `X_train` (a column, then transposed), read at training row `j`. -/
theorem sqY_read (Y : FVec Ideal S8192x512 .f32) (j : Fin 8192) :
    transpose S1x8192 [1, 0] (broadcastInDim S8192x1 ![0] bcast_S8192_S8192x1_0 (Host.reduceAdd (F := Ideal) (mulf Y Y)
      (constant (F := Ideal) S_ .f32 0x00000000#32) reducesTo_S8192x512_S8192_d1 h_S_)) transposes_S8192x1_S1x8192_1_0
      (ix2 (0 : Fin 1) j) = sqY Y j := by
  refine (transpose_ix2_apply _ transposes_S8192x1_S1x8192_1_0 (0 : Fin 1) j).trans ?_
  refine (broadcastInDim_apply _ bcast_S8192_S8192x1_0 _ (ix2 j (0 : Fin 1)) (ix1 j) (fun a => match a with
    | ⟨0, _⟩ => by show j.val = if (8192 : Nat) = 1 then 0 else j.val; rw [if_neg (by decide)])).trans ?_
  simp only [Host.reduceAdd, Ideal.hostReduceAdd_def]
  rw [Ideal.hostReduceAdd_single reducesTo_S8192x512_S8192_d1 (by decide)]
  unfold sqY
  refine congrArg₂ (· + ·) rfl (Finset.sum_congr rfl fun k _ => ?_)
  exact congrArg (fun z => Y z * Y z) (funext fun a => Fin.ext (by match a with | ⟨0, _⟩ => rfl | ⟨1, _⟩ => rfl))

/-- Window 2 at point `t`: entry `p` of the column is the squared norm of row `1024·(t/4) + p` of `X`. -/
theorem iblk2_apply (c : Dev nD) (t : Fin cfg0.N) (p : Fin 1024) :
    iblk m c 2 t (ix2 p (0 : Fin 1)) = sqX (m ((c : Thread nD τ).loc main_arg0)) (rowOf (t.val / 4) p) := by
  have hN : t.val < 16 := lt_of_lt_of_eq t.isLt N_0
  obtain ⟨-, -, -, -, e0, e1, -⟩ := idx_facts t
  unfold iblk
  rw [View.read_apply]
  show V m c main_v2 (((cfg0.win 2).blk t).view.emb (ix2 p (0 : Fin 1))) = _
  rw [V_v2]
  refine Eq.trans (congrArg _ (funext fun a => Fin.ext ?_)) (sqX_read _ (rowOf (t.val / 4) p))
  match a with
  | ⟨0, _⟩ =>
    show win0_2.index t (0 : Fin 2) * 1024 + 1 * p.val = (1024 * (t.val / 4) + p.val) % 4096
    rw [e0]; have := p.isLt; omega
  | ⟨1, _⟩ =>
    show win0_2.index t (1 : Fin 2) * 1 + 1 * 0 = 0
    rw [e1]

/-- Window 3 at point `t`: entry `k` of the row is the squared norm of training row `2048·(t%4) + k`. -/
theorem iblk3_apply (c : Dev nD) (t : Fin cfg0.N) (k : Fin 2048) :
    iblk m c 3 t (ix2 (0 : Fin 1) k) = sqY (m ((c : Thread nD τ).loc main_arg1)) (colOf (t.val % 4) k) := by
  obtain ⟨-, -, -, -, -, -, e0, e1, -⟩ := idx_facts t
  unfold iblk
  rw [View.read_apply]
  show V m c main_v6 (((cfg0.win 3).blk t).view.emb (ix2 (0 : Fin 1) k)) = _
  rw [V_v6]
  refine Eq.trans (congrArg _ (funext fun a => Fin.ext ?_)) (sqY_read _ (colOf (t.val % 4) k))
  match a with
  | ⟨0, _⟩ =>
    show win0_3.index t (0 : Fin 2) * 1 + 1 * 0 = 0
    rw [e0]
  | ⟨1, _⟩ =>
    show win0_3.index t (1 : Fin 2) * 2048 + 1 * k.val = (2048 * (t.val % 4) + k.val) % 8192
    rw [e1]; have := k.isLt; omega

/-! ## The small network's weights: one block, the whole array, at every point -/

theorem idx_facts_w : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 1) = 0 ∧ win0_8.index t (0 : Fin 1) = 0 ∧ win0_9.index t (0 : Fin 1) = 0 :=
  (by decide +kernel : ∀ t : Fin grid0.N, _)

theorem iblk5_eq (c : Dev nD) (t : Fin cfg0.N) (y : S8x4.Idx) :
    iblk m c 5 t y = m ((c : Thread nD τ).loc main_arg4) y := by
  obtain ⟨e0, e1, -⟩ := idx_facts_w t
  unfold iblk
  rw [View.read_apply]
  show V m c main_arg4 (((cfg0.win 5).blk t).view.emb y) = _
  rw [V_main_arg4]
  refine congrArg (m ((c : Thread nD τ).loc main_arg4)) (funext fun a => Fin.ext ?_)
  match a with
  | ⟨0, _⟩ => show win0_5.index t (0 : Fin 2) * 8 + 1 * (y 0).val = (y 0).val; rw [e0]; omega
  | ⟨1, _⟩ => show win0_5.index t (1 : Fin 2) * 4 + 1 * (y 1).val = (y 1).val; rw [e1]; omega

theorem iblk6_eq (c : Dev nD) (t : Fin cfg0.N) (y : S4x1.Idx) :
    iblk m c 6 t y = m ((c : Thread nD τ).loc main_arg6) y := by
  obtain ⟨-, -, e0, e1, -⟩ := idx_facts_w t
  unfold iblk
  rw [View.read_apply]
  show V m c main_arg6 (((cfg0.win 6).blk t).view.emb y) = _
  rw [V_main_arg6]
  refine congrArg (m ((c : Thread nD τ).loc main_arg6)) (funext fun a => Fin.ext ?_)
  match a with
  | ⟨0, _⟩ => show win0_6.index t (0 : Fin 2) * 4 + 1 * (y 0).val = (y 0).val; rw [e0]; omega
  | ⟨1, _⟩ => show win0_6.index t (1 : Fin 2) * 1 + 1 * (y 1).val = (y 1).val; rw [e1]; omega

theorem iblk7_eq (c : Dev nD) (t : Fin cfg0.N) (y : S8.Idx) :
    iblk m c 7 t y = m ((c : Thread nD τ).loc main_arg3) y := by
  obtain ⟨-, -, -, -, e0, -⟩ := idx_facts_w t
  unfold iblk
  rw [View.read_apply]
  show V m c main_arg3 (((cfg0.win 7).blk t).view.emb y) = _
  rw [V_main_arg3]
  refine congrArg (m ((c : Thread nD τ).loc main_arg3)) (funext fun a => Fin.ext ?_)
  match a with
  | ⟨0, _⟩ => show win0_7.index t (0 : Fin 1) * 8 + 1 * (y 0).val = (y 0).val; rw [e0]; omega

theorem iblk8_eq (c : Dev nD) (t : Fin cfg0.N) (y : S4.Idx) :
    iblk m c 8 t y = m ((c : Thread nD τ).loc main_arg5) y := by
  obtain ⟨-, -, -, -, -, e0, -⟩ := idx_facts_w t
  unfold iblk
  rw [View.read_apply]
  show V m c main_arg5 (((cfg0.win 8).blk t).view.emb y) = _
  rw [V_main_arg5]
  refine congrArg (m ((c : Thread nD τ).loc main_arg5)) (funext fun a => Fin.ext ?_)
  match a with
  | ⟨0, _⟩ => show win0_8.index t (0 : Fin 1) * 4 + 1 * (y 0).val = (y 0).val; rw [e0]; omega

theorem iblk9_eq (c : Dev nD) (t : Fin cfg0.N) (y : S1.Idx) :
    iblk m c 9 t y = m ((c : Thread nD τ).loc main_arg7) y := by
  obtain ⟨-, -, -, -, -, -, e0⟩ := idx_facts_w t
  unfold iblk
  rw [View.read_apply]
  show V m c main_arg7 (((cfg0.win 9).blk t).view.emb y) = _
  rw [V_main_arg7]
  refine congrArg (m ((c : Thread nD τ).loc main_arg7)) (funext fun a => Fin.ext ?_)
  match a with
  | ⟨0, _⟩ => show win0_9.index t (0 : Fin 1) * 1 + 1 * (y 0).val = (y 0).val; rw [e0]; omega

end Cert.KernelIdeal.KValue

end
-- ==== Proof.Accum.lean ====
/-
  The running first-layer sum after every grid point, and the output block at the points that finish a row block.

  Point t works on row block i = t / 4 of X and training-row block j = t % 4.  One run of the body adds block j's
  share `part j` to the running sum (after resetting it to zero when j = 0).  By induction on t, the running sum
  after point t, at (p, h), is `accUpTo (t % 4)` of row 1024·i + p: the zero word plus the shares of blocks
  0 … t % 4, added in that order.  At the points with t % 4 = 3 the body then stores, at (p, 0), the small network
  applied to the finished sum `accUpTo 3` of that row.
-/
import proofs.«168606_j65481071399956_2_alg».proof.Proof.Pieces
import proofs.«168606_j65481071399956_2_alg».proof.Proof.PayIdx
import proofs.«168606_j65481071399956_2_alg».proof.Proof.Blocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ)

/-! ## The eight argument arrays of core `c`, as the specification's functions -/

abbrev aX (c : Dev nD) : AX := m ((c : Thread nD τ).loc main_arg0)
abbrev aY (c : Dev nD) : AY := m ((c : Thread nD τ).loc main_arg1)
abbrev aW1 (c : Dev nD) : AW1 := m ((c : Thread nD τ).loc main_arg2)
abbrev aB1 (c : Dev nD) : AB1 := m ((c : Thread nD τ).loc main_arg3)
abbrev aW2 (c : Dev nD) : AW2 := m ((c : Thread nD τ).loc main_arg4)
abbrev aB2 (c : Dev nD) : AB2 := m ((c : Thread nD τ).loc main_arg5)
abbrev aW3 (c : Dev nD) : AW3 := m ((c : Thread nD τ).loc main_arg6)
abbrev aB3 (c : Dev nD) : AB3 := m ((c : Thread nD τ).loc main_arg7)

/-- One run of the body at point `t` on a running sum `a`: at `(p, h)` it adds block `t % 4`'s share for row
    `1024·(t/4) + p`. -/
theorem step_apply (c : Dev nD) (t : Fin cfg0.N) (a : FVec Ideal S1024x8 .f32) (p : Fin 1024) (h : Fin 8) :
    k0_pay3 (F := Ideal) (iblk m c 0 t) (iblk m c 1 t) (iblk m c 2 t) (iblk m c 3 t) (iblk m c 4 t) a (ix2 p h)
      = a (ix2 p h) + part (aX m c) (aY m c) (aW1 m c) (t.val % 4) (rowOf (t.val / 4) p) h := by
  refine (pay3_apply (iblk m c 0 t) (iblk m c 1 t) (iblk m c 2 t) (iblk m c 3 t) (iblk m c 4 t) a p h).trans ?_
  unfold part rbfKer dotXY
  refine congrArg (a (ix2 p h) + ·) (Finset.sum_congr rfl fun k _ => ?_)
  rw [iblk4_apply m c t k h, iblk2_apply m c t p, iblk3_apply m c t k]
  simp only [iblk0_apply m c t p, iblk1_apply m c t k]

/-- THE RUNNING SUM after the body at position `n`. -/
theorem scratch_eq (c : Dev nD) : ∀ (n : ℕ) (hn : n < cfg0.N) (p : Fin 1024) (h : Fin 8),
    (outsAt0 m c n hn).2 (ix2 p h) = accUpTo (aX m c) (aY m c) (aW1 m c) (n % 4) (rowOf (n / 4) p) h
  | 0, hn, p, h => by
    rw [outsAt0_A m c ⟨0, hn⟩ (Nat.zero_mod 4) (show ¬ (0 : ℕ) % 4 = 3 by decide)]
    dsimp only
    rw [scratch_A]
    refine (step_apply m c ⟨0, hn⟩ _ p h).trans ?_
    rw [pay2_apply]
    rfl
  | n + 1, hn, p, h => by
    have hN : n + 1 < 16 := lt_of_lt_of_eq hn N_0
    by_cases h0 : (n + 1) % 4 = 0
    · have h1 : ¬ (n + 1) % 4 = 3 := by omega
      rw [outsAt0_A m c ⟨n + 1, hn⟩ h0 h1]
      dsimp only
      rw [scratch_A]
      refine (step_apply m c ⟨n + 1, hn⟩ _ p h).trans ?_
      rw [pay2_apply]
      show zero + part (aX m c) (aY m c) (aW1 m c) ((n + 1) % 4) (rowOf ((n + 1) / 4) p) h
        = accUpTo (aX m c) (aY m c) (aW1 m c) ((n + 1) % 4) (rowOf ((n + 1) / 4) p) h
      rw [h0]
      rfl
    · have e4 : (n + 1) / 4 = n / 4 := by omega
      have e5 : (n + 1) % 4 = n % 4 + 1 := by omega
      by_cases h1 : (n + 1) % 4 = 3
      · rw [outsAt0_C m c ⟨n + 1, hn⟩ h0 h1]
        dsimp only
        rw [scratch_C]
        refine (step_apply m c ⟨n + 1, hn⟩ _ p h).trans ?_
        show (outsAt0 m c n _).2 (ix2 p h) + part (aX m c) (aY m c) (aW1 m c) ((n + 1) % 4) (rowOf ((n + 1) / 4) p) h
          = accUpTo (aX m c) (aY m c) (aW1 m c) ((n + 1) % 4) (rowOf ((n + 1) / 4) p) h
        rw [scratch_eq c n (Nat.lt_of_succ_lt hn) p h, e4, e5]
        rfl
      · rw [outsAt0_B m c ⟨n + 1, hn⟩ h0 h1]
        dsimp only
        rw [scratch_B]
        refine (step_apply m c ⟨n + 1, hn⟩ _ p h).trans ?_
        show (outsAt0 m c n _).2 (ix2 p h) + part (aX m c) (aY m c) (aW1 m c) ((n + 1) % 4) (rowOf ((n + 1) / 4) p) h
          = accUpTo (aX m c) (aY m c) (aW1 m c) ((n + 1) % 4) (rowOf ((n + 1) / 4) p) h
        rw [scratch_eq c n (Nat.lt_of_succ_lt hn) p h, e4, e5]
        rfl

end Cert.KernelIdeal.KValue

end
-- ==== Proof.KRun.lean ====
/-
  The blocked program's run, read at its result.

  The program is one pipelined region over a 4 × 4 grid of points t = 4·i + k (row block i of 1024 rows, training
  block k of 2048 rows), followed by one reshape of the region's 4096 × 1 output column to length 4096.  The
  output column's block i (rows 1024·i … 1024·i + 1023) is written back exactly at the last point of row block i,
  t = 4·i + 3; these four blocks cover the whole column.  So once the column after the last point is known (as a
  function `Gout` of the arguments), the run's post is: the result is the reshape of `Gout`, and the eight
  arguments are unchanged.
-/
import proofs.«168606_j65481071399956_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The output column's blocks -/

/-- The output window's block index at point `t`: row block `t / 4`, the one column block. -/
theorem idx_facts10 : ∀ t : Fin cfg0.N, win0_10.index t (0 : Fin 2) = t.val / 4 ∧ win0_10.index t (1 : Fin 2) = 0 :=
  (by decide +kernel : ∀ t : Fin grid0.N, _)

/-- An index of the column is in point `t`'s block iff each coordinate is in the block's range on its axis. -/
theorem mem_blk10 (t : Fin cfg0.N) (i : S4096x1.Idx) :
    i ∈ ((cfg0.win 10).blk t).view.set ↔ ∀ a : Fin 2, win0_10.index t a * S1024x1.size a ≤ (i a).val ∧ (i a).val < win0_10.index t a * S1024x1.size a + S1024x1.size a := by
  show i ∈ ((View.whole main_v10).slice (win0_10.rect t)).set ↔ _
  rw [View.set_slice_whole, Rect.mem_set_unit]
  exact Iff.rfl

/-- Every index of the column lies in a block that is written back: row `r` in the block of point `4·(r / 1024) + 3`. -/
theorem cover10 (i : S4096x1.Idx) : ∃ t : Fin cfg0.N, (cfg0.win 10).flush t = true ∧ i ∈ ((cfg0.win 10).blk t).view.set := by
  have hi0 : (i 0).val < 4096 := (i 0).isLt
  have hi1 : (i 1).val < 1 := (i 1).isLt
  have hN : cfg0.N = 16 := N_0
  obtain ⟨t, ht⟩ : ∃ t : Fin cfg0.N, t.val = 4 * ((i 0).val / 1024) + 3 := ⟨⟨4 * ((i 0).val / 1024) + 3, by rw [hN]; omega⟩, rfl⟩
  refine ⟨t, (flush0_10 t).2 (by omega), ?_⟩
  rw [mem_blk10]
  obtain ⟨e0, e1⟩ := idx_facts10 t
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 1 ≤ (i 1).val ∧ (i 1).val < win0_10.index t (1 : Fin 2) * 1 + 1; omega

/-! ## The reshape after the region -/

/-- After the region the one host operation reshapes the output column: the result array is the reshape of the
    column as the last point leaves it. -/
theorem tail_v11 (dats' : (p : Fin 1) → (c : Dev nD) → Dat τ (Elt F) Unit ℕ (UR sig nD τ) ℕ (cfgs p) c) (c : Dev nD) :
    Pipeline.afterTail₀ cfgs dats' 0 (V0 m) [hostOps1] c main_v11
      = shapeCast S4096 ((dats' 0 c).arrAt 10 cfg0.N) shapeCasts_S4096x1_S4096 := by
  unfold Pipeline.afterTail₀
  show StableHlo.after hostOps1 _ (Proc.devRef .tc main_v11) = _
  after_results
  have e : Pipeline.withArrays (cfgs 0).spec c (V0 m c) (fun w => (dats' 0 c).arrAt w (cfgs 0).N) (Proc.devRef .tc main_v10)
      = (dats' 0 c).arrAt 10 cfg0.N :=
    Pipeline.withArrays_arr spec0 launch0.win.arr_inj c _ _ 10
  funext i
  exact congrArg (fun A => shapeCast S4096 A shapeCasts_S4096x1_S4096 i) e

/-! ## The run -/

/-- The run's post, given the output column after the last point: the result is its reshape, the arguments are unchanged. -/
theorem run_value (Gout : (c : Dev nD) → Buf (Elt F) ((c : Thread nD τ).loc main_v10))
    (hfinal : ∀ c, (dats m 0 c).arrAt 10 cfg0.N = Gout c) :
    θ_run defs (onTc (τ := τ) (main (F := F))) ⟨m, fun _ => 0, ρ⟩ (fun r => ∀ c : Dev nD,
      r.2.mem ((c.tc : Thread nD τ).loc main_v11) = shapeCast S4096 (Gout c) shapeCasts_S4096x1_S4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v11 (Pipeline.mem_restRefs_of main_v11 (by decide) (by decide))).trans
        ((tail_v11 m (dats m) c).trans (by rw [hfinal])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 7).trans (((dats m 0 c).arrAt_in 7 rfl _).trans ((A_eq m c 7).trans (V_main_arg3 m c))),
      ((h c).1 5).trans (((dats m 0 c).arrAt_in 5 rfl _).trans ((A_eq m c 5).trans (V_main_arg4 m c))),
      ((h c).1 8).trans (((dats m 0 c).arrAt_in 8 rfl _).trans ((A_eq m c 8).trans (V_main_arg5 m c))),
      ((h c).1 6).trans (((dats m 0 c).arrAt_in 6 rfl _).trans ((A_eq m c 6).trans (V_main_arg6 m c))),
      ((h c).1 9).trans (((dats m 0 c).arrAt_in 9 rfl _).trans ((A_eq m c 9).trans (V_main_arg7 m c)))⟩)
    (run_main m ρ)

end Cert.KernelIdeal.KValue

end
-- ==== Proof.Final.lean ====
/-
  The output array after the run, as one function of the arguments.

  The output [4096, 1] is written back in four blocks of 1024 rows, block i at the point t = 4·i + 3 that finishes
  row block i.  What that point writes at (p, 0) is the small network applied to the finished first-layer sum of
  row 1024·i + p, so every write-back is a block of ONE function of the array index,
      out(r, 0) = mlp(accUpTo 3 r),
  the four blocks tile the array, and the array ends holding that function.  Read through the final reshape
  [4096, 1] → [4096] it is the specification's `GK`.
-/
import proofs.«168606_j65481071399956_2_alg».proof.Proof.Accum
import proofs.«168606_j65481071399956_2_alg».proof.Proof.KRun

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- The small network depends on its six arguments only through their values. -/
theorem mlp_congr {a a' : Fin 8 → EReal} {b1 b1' : AB1} {W2 W2' : AW2} {b2 b2' : AB2} {W3 W3' : AW3} {b3 b3' : AB3}
    (ha : ∀ h, a h = a' h) (h1 : ∀ y, b1 y = b1' y) (h2 : ∀ y, W2 y = W2' y) (h3 : ∀ y, b2 y = b2' y)
    (h4 : ∀ y, W3 y = W3' y) (h5 : ∀ y, b3 y = b3' y) :
    mlp a b1 W2 b2 W3 b3 = mlp a' b1' W2' b2' W3' b3' := by
  obtain rfl : a = a' := funext ha
  obtain rfl : b1 = b1' := funext h1
  obtain rfl : W2 = W2' := funext h2
  obtain rfl : b2 = b2' := funext h3
  obtain rfl : W3 = W3' := funext h4
  obtain rfl : b3 = b3' := funext h5
  rfl

/-- THE OUTPUT BLOCK at a point that finishes a row block, at `(p, 0)`. -/
theorem out_eq (c : Dev nD) (t : Fin cfg0.N) (h3 : t.val % 4 = 3) (p : Fin 1024) :
    (outsAt0 m c t.val t.isLt).1 (ix2 p (0 : Fin 1))
      = mlp (accUpTo (aX m c) (aY m c) (aW1 m c) 3 (rowOf (t.val / 4) p)) (aB1 m c) (aW2 m c) (aB2 m c) (aW3 m c) (aB3 m c) := by
  have h0 : ¬ t.val % 4 = 0 := by omega
  have e2 : (outsAt0 m c t.val t.isLt).2
      = k0_pay3 (iblk m c 0 t) (iblk m c 1 t) (iblk m c 2 t) (iblk m c 3 t) (iblk m c 4 t)
          (outsAt0 m c (t.val - 1) (Nat.lt_of_le_of_lt (Nat.sub_le _ _) t.isLt)).2 := by
    rw [outsAt0_C m c t h0 h3]
    dsimp only
    rw [scratch_C]
  rw [outsAt0_C m c t h0 h3]
  dsimp only
  rw [out_C, ← e2]
  refine (pay1_apply (outsAt0 m c t.val t.isLt).2 (iblk m c 7 t) (iblk m c 5 t) (iblk m c 8 t) (iblk m c 6 t) (iblk m c 9 t) p).trans ?_
  exact mlp_congr (fun h => by rw [scratch_eq m c t.val t.isLt p h, h3]) (iblk7_eq m c t) (iblk5_eq m c t)
    (iblk8_eq m c t) (iblk6_eq m c t) (iblk9_eq m c t)

/-- The output array after the run: row `r` holds the small network of row `r`'s finished first-layer sum. -/
def Gout (c : Dev nD) : S4096x1.Idx → EReal :=
  fun i => mlp (accUpTo (aX m c) (aY m c) (aW1 m c) 3 (i 0)) (aB1 m c) (aW2 m c) (aB2 m c) (aW3 m c) (aB3 m c)

/-- WHAT A WRITE-BACK HOLDS: block `t` of `Gout`. -/
theorem flushed_eq (c : Dev nD) (t : Fin cfg0.N) (hf : (cfg0.win 10).flush t = true) :
    (dats m 0 c).flushed 10 t = ((cfg0.win 10).blk t).view.read (Elt Ideal) (Gout m c) := by
  have h3 : t.val % 4 = 3 := (flush0_10 t).mp hf
  have hN : t.val < 16 := lt_of_lt_of_eq t.isLt N_0
  obtain ⟨e0, -⟩ := idx_facts10 t
  show (cfg0.win 10).cut (grid0.coords t) ((dats m 0 c).after 10 t) = _
  rw [after0_10]
  funext y
  obtain ⟨p, z, rfl⟩ : ∃ (p : Fin 1024) (z : Fin 1), y = ix2 p z := ⟨y 0, y 1, eq_ix2 y⟩
  obtain rfl : z = 0 := Subsingleton.elim _ _
  rw [View.read_apply]
  show (outsAt0 m c t.val t.isLt).1 (ix2 p (0 : Fin 1)) = Gout m c (((cfg0.win 10).blk t).view.emb (ix2 p (0 : Fin 1)))
  rw [out_eq m c t h3 p]
  unfold Gout
  have er : ((cfg0.win 10).blk t).view.emb (ix2 p (0 : Fin 1)) 0 = rowOf (t.val / 4) p := Fin.ext (by
    show win0_10.index t (0 : Fin 2) * 1024 + 1 * p.val = (1024 * (t.val / 4) + p.val) % 4096
    rw [e0]; have := p.isLt; omega)
  rw [er]

/-- THE OUTPUT ARRAY after the run is `Gout`: the four write-backs tile it. -/
theorem final10 (c : Dev nD) : (dats m 0 c).arrAt 10 cfg0.N = Gout m c :=
  (dats m 0 c).arrAt_eq_of_cover 10 (Gout m c) (flushed_eq m c) cover10

/-- Through the final reshape `[4096, 1] → [4096]` it is the specification's blocked result. -/
theorem reshaped_eq (c : Dev nD) :
    (shapeCast S4096 (Gout m c) shapeCasts_S4096x1_S4096 : S4096.Idx → EReal)
      = GK (aX m c) (aY m c) (aW1 m c) (aB1 m c) (aW2 m c) (aB2 m c) (aW3 m c) (aB3 m c) := by
  funext i
  obtain ⟨r, rfl⟩ : ∃ r : Fin 4096, i = ix1 r := ⟨i 0, eq_ix1 i⟩
  refine (shapeCast_apply (Gout m c) shapeCasts_S4096x1_S4096 (ix1 r) (ix2 r (0 : Fin 1)) (by
    rw [Shape.rowMajor_val_two, Shape.rowMajor_val_one]
    show r.val * 1 + 0 = r.val
    omega)).trans ?_
  rfl

/-- THE RUN, READ: the result at the specification's blocked function of the arguments, the arguments unchanged. -/
theorem run : θ_run defs (onTc (τ := τ) (main (F := Ideal))) ⟨m, fun _ => 0, ρ⟩ (fun r => ∀ c : Dev nD,
      r.2.mem ((c.tc : Thread nD τ).loc main_v11)
        = GK (aX m c) (aY m c) (aW1 m c) (aB1 m c) (aW2 m c) (aB2 m c) (aW3 m c) (aB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1).trans (reshaped_eq m c), (h c).2⟩)
    (run_value m ρ (Gout m) (final10 m))

end Cert.KernelIdeal.KValue

end
-- ==== Proof.Claims.lean ====
/-
  The five claims, assembled.

  Frames: the two kernel programs' frames are the generated ones; the reference has no kernel, and its frame is its
  run with the result dropped.  `preserves`: the idealization rewrote nothing.
  `algebraic`: the kernel's result is the blocked function `GK` of its arguments (the run read in Final.lean); the
  reference's result is `G` of arguments that agree (its run, read stage by stage in RefIsSpec.lean); and the two are
  one function where X and X_train are finite (Law.lean: with real squared norms and inner products,
  `min(2γ·d - γ·a - γ·b, 0) = -γ·max(a + b - 2·d, 0)` because the printed `2γ` is exactly twice the printed `γ`, and a sum over
  8192 training rows is the sum of its four blocks of 2048).  Finiteness of X and X_train is what the precondition
  gives (Finite.lean).
-/
import proofs.«168606_j65481071399956_2_alg».proof.Defs
import proofs.«168606_j65481071399956_2_alg».proof.Proof.Gen.Kernel.Frame
import proofs.«168606_j65481071399956_2_alg».proof.Proof.Gen.KernelIdeal.Frame
import proofs.«168606_j65481071399956_2_alg».proof.Proof.Gen.ReferenceIdeal.Run
import proofs.«168606_j65481071399956_2_alg».proof.Proof.Gen.ReferenceIdeal.Read
import proofs.«168606_j65481071399956_2_alg».proof.Proof.Gen.Pre_finite_inputs
import proofs.«168606_j65481071399956_2_alg».proof.Proof.RefIsSpec
import proofs.«168606_j65481071399956_2_alg».proof.Proof.Finite
import proofs.«168606_j65481071399956_2_alg».proof.Proof.Law
import proofs.«168606_j65481071399956_2_alg».proof.Proof.Final

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.Finite.real_of_pre _ _ _ _ _ _ _ _ (hpre c)
  obtain ⟨e0, e1, e2, e3, e4, e5, e6, e7⟩ := hagree c
  rw [e0, e1, e2, e3, e4, e5, e6, e7]
  exact (Cert.ReferenceIdeal.Read.val_main_v33_eq _ _ _ _ _ _ _ _).trans
    ((Cert.ReferenceIdeal.RefValue.ref_eq _ _ _ _ _ _ _ _).trans
      (Cert.Law.GK_eq_G _ _ _ _ _ _ _ _ hX hY).symm)

end Cert.Proof.Claims

end
-- ==== Proof.lean ====
/-
  The proof of `Cert.Claim` for the radial-kernel network: a 4096 × 8192 matrix of `exp(-γ·|x_r - y_j|²)` entries
  (never stored whole) contracted with W1 and fed through two tanh layers.  The kernel program computes it on a
  4 × 4 grid — 1024 rows of X against 2048 training rows per step, the first-layer sum accumulated over the four
  steps of a row block — with γ folded into the exponent; the reference computes it whole.  The mathematics is in
  the modules under Proof/: Spec (the result as one function), RefIsSpec (the reference is it), Pieces, PayIdx,
  Blocks, Accum, KRun, Final (the kernel program is its blocked spelling), Law (the two spellings agree on finite
  inputs), Finite (the precondition gives finiteness), Consts (the printed float words as reals), Claims (the five
  claims).  Here they are put behind the witnesses of the programs' stated side conditions.
-/
import proofs.«168606_j65481071399956_2_alg».proof.Defs
import proofs.«168606_j65481071399956_2_alg».proof.Proof.Gen.Kernel
import proofs.«168606_j65481071399956_2_alg».proof.Proof.Gen.KernelIdeal
import proofs.«168606_j65481071399956_2_alg».proof.Proof.Gen.ReferenceIdeal
import proofs.«168606_j65481071399956_2_alg».proof.Proof.Gen.Pre_finite_inputs
import proofs.«168606_j65481071399956_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
